-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S4000x128 : Shape := ⟨2, ![4000, 128]⟩
abbrev S1600000x128 : Shape := ⟨2, ![1600000, 128]⟩
abbrev S8000x128 : Shape := ⟨2, ![8000, 128]⟩
abbrev S8000x1 : Shape := ⟨2, ![8000, 1]⟩
abbrev S1x128 : Shape := ⟨2, ![1, 128]⟩
abbrev S100000x64 : Shape := ⟨2, ![100000, 64]⟩
abbrev S4000x64 : Shape := ⟨2, ![4000, 64]⟩
abbrev S1600000x64 : Shape := ⟨2, ![1600000, 64]⟩
abbrev S8000x64 : Shape := ⟨2, ![8000, 64]⟩
abbrev S1x64 : Shape := ⟨2, ![1, 64]⟩

abbrev nBuf : Space → Nat
  | .hbm => 81
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S1600000x1, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S1x128, .f32⟩
  | .hbm, ⟨63, _⟩ => ⟨S100000x64, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x64, .f32⟩
  | .hbm, ⟨73, _⟩ => ⟨S1600000x64, .f32⟩
  | .hbm, ⟨74, _⟩ => ⟨S_, .f32⟩
  | .hbm, ⟨75, _⟩ => ⟨S100000x64, .f32⟩
  | .hbm, ⟨76, _⟩ => ⟨S1600000x1, .i32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S8000x128, .f32⟩
  | .local _ .vmem, ⟨6, _⟩ => ⟨S8000x128, .f32⟩
  | .local _ .vmem, ⟨7, _⟩ => ⟨S8000x1, .f32⟩
  | .local _ .vmem, ⟨8, _⟩ => ⟨S8000x1, .f32⟩
  | .local _ .vmem, ⟨9, _⟩ => ⟨S8000x128, .f32⟩
  | .local _ .vmem, ⟨10, _⟩ => ⟨S8000x128, .f32⟩
  | .local _ .vmem, ⟨11, _⟩ => ⟨S4000x128, .f32⟩
  | .local _ .vmem, ⟨12, _⟩ => ⟨S4000x128, .f32⟩
  | .local _ .vmem, ⟨13, _⟩ => ⟨S1x128, .f32⟩
  | .local _ .vmem, ⟨14, _⟩ => ⟨S128x64, .f32⟩
  | .local _ .vmem, ⟨15, _⟩ => ⟨S4000x64, .f32⟩
  | .local _ .vmem, ⟨16, _⟩ => ⟨S4000x64, .f32⟩
  | .local _ .vmem, ⟨17, _⟩ => ⟨S8000x64, .f32⟩
  | .local _ .vmem, ⟨18, _⟩ => ⟨S8000x64, .f32⟩
  | .local _ .vmem, ⟨19, _⟩ => ⟨S8000x1, .f32⟩
  | .local _ .vmem, ⟨20, _⟩ => ⟨S8000x1, .f32⟩
  | .local _ .vmem, ⟨21, _⟩ => ⟨S8000x64, .f32⟩
  | .local _ .vmem, ⟨22, _⟩ => ⟨S8000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S1600000_S1600000x1 : S1600000.ShapeCasts S1600000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S4000x128_S4000x128 : S4000x128.ShapeCasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  broadcasts_S8000x1_S8000x64 : S8000x1.Broadcasts S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S100000x64 : S_.BroadcastsInDim S100000x64 (![] : Fin 0 → Fin S100000x64.rank)
  shapeCasts_S64_S1x64 : S64.ShapeCasts S1x64
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1600000x128.size a
  hwx1_0 : ∀ i : grid1.Coords, EltTy.bits .f32 = 32 ∨ (Rect.block (s := S1600000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S1600000x128.size a
  hwx1_2 : ∀ i : grid1.Coords, EltTy.bits .f32 = 32 ∨ (Rect.block (s := S1600000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S1600000x64.size a
  hwx3_0 : ∀ i : grid3.Coords, EltTy.bits .f32 = 32 ∨ (Rect.block (s := S1600000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S1600000x1.size a
  hwx3_1 : ∀ i : grid3.Coords, EltTy.bits .f32 = 32 ∨ (Rect.block (s := S1600000x1) S8000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x64.size a ≤ S1600000x64.size a
  hwx3_2 : ∀ i : grid3.Coords, EltTy.bits .f32 = 32 ∨ (Rect.block (s := S1600000x64) S8000x64.size (cc3_transform_2 i) (hinb3_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S4000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v50) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S8000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S1600000x1, .f32⟩
  | .hbm, ⟨80, _⟩ => ⟨S1600000x64, .f32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call1_cst : Ref sig .tc := ⟨.hbm, 66, rfl⟩
abbrev main_call1_v0 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run, read at its result.

  @main is four pipelined regions among stretches of host operations: eleven segments, each entered from the buffer
  contents the one before leaves (`W0` at the launch, … , `W11` after the last stretch). The library's launch theorem for
  a program of several regions runs the segments in order from any memory with zero counters; at the end every unscoped
  buffer holds the last boundary's contents. So the result buffer `main_v57` ends at `W11 … main_v57`, and the six
  argument arrays, which no segment writes, end as launched. What `W11` holds at the result, as a function of the
  arguments, is the business of the modules that import this one.
-/
import proofs.«147359_j16887811408593_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_last : θ_run defs (onTc (τ := τ) (main (F := F))) ⟨m, fun _ => 0, ρ⟩ (fun r => ∀ c : Dev nD,
      r.2.mem ((c.tc : Thread nD τ).loc main_v57) = W11 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v57 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.Hand

end
-- ==== Proof.Spec.lean ====
/-
  The two-layer graph convolution as ONE function of the argument arrays, stage by stage.

  From the edge list `e : [2, 1600000]` (row 0 the source node of each edge, row 1 its destination):
    * `degree e`        — the in-degree of every node: ones scattered and added at the destinations;
    * `invSqrtDegree e` — `1/√max(deg, 1)` where the degree is positive, `0` elsewhere;
    * `edgeWeight e`    — for each edge, that value at its source times that value at its destination
                          (a node index below zero counts from the end: `wrapped`).
  One layer's aggregation of node rows `h` (`aggregate128`, `aggregate64`): for each edge the row of `h` at its source,
  times the edge's weight, added into the row of its destination. The network: `hidden = max(aggregate(x·W1) + b1, 0)`,
  `output = aggregate(hidden·W2) + b2`, each bias a row stretched over all nodes. The two matrix products of whole arrays
  are the host's, with dimension records `d1`, `d2` left as parameters.

  Every stage is spelt with the host operations the two programs print, so that each program's result, read back
  through its own operations, is this term by unfolding.
-/
import proofs.«147359_j16887811408593_1_alg».proof.Proof.Gen.KernelIdeal

noncomputable section

namespace Cert.KernelIdeal.Spec

open Idealize.ShloMosaic Cert.KernelIdeal Cert.KernelIdeal.Gen

/-! ## Side conditions of the stretchings the kernel's own program does not state -/

theorem stretch_col128 : S1600000x1.BroadcastsInDim S1600000x128 (![0, 1] : Fin 2 → Fin S1600000x128.rank) := by decide
theorem stretch_col64 : S1600000x1.BroadcastsInDim S1600000x64 (![0, 1] : Fin 2 → Fin S1600000x64.rank) := by decide
theorem as_row128 : S128.BroadcastsInDim S1x128 (![1] : Fin 1 → Fin S1x128.rank) := by decide
theorem as_row64 : S64.BroadcastsInDim S1x64 (![1] : Fin 1 → Fin S1x64.rank) := by decide
theorem stretch_row128 : S1x128.BroadcastsInDim S100000x128 (![0, 1] : Fin 2 → Fin S100000x128.rank) := by decide

/-! ## The edge list -/

/-- The source node of every edge: row 0 of the edge list. -/
def srcRow (e : IVec S2x1600000 32) : IVec S1600000 32 :=
  shapeCast S1600000 (extractStridedSlice S1x1600000 ![0, 0] e slices_S2x1600000_S1x1600000_0_0) shapeCasts_S1x1600000_S1600000
/-- The destination node of every edge: row 1 of the edge list. -/
def dstRow (e : IVec S2x1600000 32) : IVec S1600000 32 :=
  shapeCast S1600000 (extractStridedSlice S1x1600000 ![1, 0] e slices_S2x1600000_S1x1600000_1_0) shapeCasts_S1x1600000_S1600000
/-- A node index below zero counts from the end. -/
def wrapped (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v
/-- A vector over the edges as a one-column matrix. -/
def asColumn {α : Type} (v : S1600000.Idx → α) : S1600000x1.Idx → α :=
  broadcastInDim S1600000x1 ![0] bcast_S1600000_S1600000x1_0 v

variable {F : FTy → Type} [FloatOps F]

/-! ## The edge weights -/

/-- The in-degree of every node. -/
def degree (e : IVec S2x1600000 32) : FVec F S100000 .f32 :=
  Host.scatterAdd scatter_S100000_S1600000x1_S1600000_n_0_0_1
    (broadcastInDim S100000 ![] bcast_S_S100000 (constant S_ .f32 0x00000000#32))
    (asColumn (dstRow e))
    (broadcastInDim S1600000 ![] bcast_S_S1600000 (constant S_ .f32 0x3F800000#32))
/-- `1/√max(deg, 1)` at the nodes of positive degree, zero at the others. -/
def invSqrtDegree (e : IVec S2x1600000 32) : FVec F S100000 .f32 :=
  select (cmpf (F := F) .ogt (degree e) (broadcastInDim S100000 ![] bcast_S_S100000 (constant S_ .f32 0x00000000#32)))
    (Host.rsqrt (maximumf (degree e) (broadcastInDim S100000 ![] bcast_S_S100000 (constant S_ .f32 0x3F800000#32))))
    (broadcastInDim S100000 ![] bcast_S_S100000 (id (constant S_ .f32 0x00000000#32)))
/-- Each edge's weight: the value at its source times the value at its destination. -/
def edgeWeight (e : IVec S2x1600000 32) : FVec F S1600000 .f32 :=
  mulf (Host.gather gather_S100000_S1600000x1_S1600000_n_0_n_n_0_1_1 (invSqrtDegree e) (asColumn (wrapped (srcRow e))))
    (Host.gather gather_S100000_S1600000x1_S1600000_n_0_n_n_0_1_1 (invSqrtDegree e) (asColumn (wrapped (dstRow e))))

/-! ## One layer's aggregation -/

/-- Rows of width 128 gathered at the sources, weighted, added at the destinations. -/
def aggregate128 (h : FVec F S100000x128 .f32) (e : IVec S2x1600000 32) : FVec F S100000x128 .f32 :=
  Host.scatterAdd scatter_S100000x128_S1600000x1_S1600000x128_1_0_0_1
    (broadcastInDim S100000x128 ![] bcast_S_S100000x128 (constant S_ .f32 0x00000000#32))
    (asColumn (dstRow e))
    (mulf (Host.gather gather_S100000x128_S1600000x1_S1600000x128_1_0_n_n_0_1_1128 h (asColumn (wrapped (srcRow e))))
      (broadcastInDim S1600000x128 ![0, 1] stretch_col128 (asColumn (edgeWeight e))))
/-- Rows of width 64 gathered at the sources, weighted, added at the destinations. -/
def aggregate64 (h : FVec F S100000x64 .f32) (e : IVec S2x1600000 32) : FVec F S100000x64 .f32 :=
  Host.scatterAdd scatter_S100000x64_S1600000x1_S1600000x64_1_0_0_1
    (broadcastInDim S100000x64 ![] bcast_S_S100000x64 (constant S_ .f32 0x00000000#32))
    (asColumn (dstRow e))
    (mulf (Host.gather gather_S100000x64_S1600000x1_S1600000x64_1_0_n_n_0_1_164 h (asColumn (wrapped (srcRow e))))
      (broadcastInDim S1600000x64 ![0, 1] stretch_col64 (asColumn (edgeWeight e))))

/-! ## The network -/

/-- The hidden rows: the first layer's aggregation plus its bias, rectified. -/
def hidden (d1 : DotDims S100000x128 S128x128 S100000x128) (x : FVec F S100000x128 .f32) (e : IVec S2x1600000 32)
    (W1 : FVec F S128x128 .f32) (b1 : FVec F S128 .f32) : FVec F S100000x128 .f32 :=
  maximumf (addf (aggregate128 (Host.dotGeneral d1 none x W1) e)
      (broadcastInDim S100000x128 ![0, 1] stretch_row128 (broadcastInDim S1x128 ![1] as_row128 b1)))
    (broadcastInDim S100000x128 ![] bcast_S_S100000x128 (constant S_ .f32 0x00000000#32))
/-- The output rows: the second layer's aggregation plus its bias. -/
def output (d1 : DotDims S100000x128 S128x128 S100000x128) (d2 : DotDims S100000x128 S128x64 S100000x64)
    (x : FVec F S100000x128 .f32) (e : IVec S2x1600000 32) (W1 : FVec F S128x128 .f32) (b1 : FVec F S128 .f32)
    (W2 : FVec F S128x64 .f32) (b2 : FVec F S64 .f32) : FVec F S100000x64 .f32 :=
  addf (aggregate64 (Host.dotGeneral d2 none (hidden d1 x e W1 b1) W2) e)
    (broadcastInDim S100000x64 ![0, 1] bcast_S1x64_S100000x64_0_1 (broadcastInDim S1x64 ![1] as_row64 b2))

end Cert.KernelIdeal.Spec

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.RefSpec.lean ====
/-
  The reference program's result is the specification's function of its arguments.

  Its generated run ends with the result at the composed term of its 83 host operations; that term is, operation for
  operation, the specification's `output` with the reference's own two matrix-product records, so the two agree by
  unfolding. Also here: those two records contract the left operand's columns against the right operand's rows with no
  batch axis, so over the extended reals the host's product with either reads, at `(r, q)`, `∑ₖ lhs(r, k) · rhs(k, q)`.
-/
import proofs.«147359_j16887811408593_1_alg».proof.Proof.RefRun
import proofs.«147359_j16887811408593_1_alg».proof.Proof.Spec
import proofs.«147359_j16887811408593_1_alg».proof.Proof.LibColumnBlocks

set_option maxRecDepth 16384

noncomputable section

namespace Cert.ReferenceIdeal.RefSpec

open Idealize.ShloMosaic Idealize.ShloMosaic.TcCoe Idealize.SL.Sem Idealize.ShloMosaic.ValueIdx
open Cert.ReferenceIdeal Cert.ReferenceIdeal.Gen

/-! ## The two products' records -/

theorem dot1_lhs0 (j : S100000x128.Idx) (k : Cert.ReferenceIdeal.dot_S100000x128_S128x128_S100000x128_1_0_0_1_n_n.contr.Idx) : (Cert.ReferenceIdeal.dot_S100000x128_S128x128_S100000x128_1_0_0_1_n_n.lhsIdx j k 0).val = (j 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem dot1_rhs1 (j : S100000x128.Idx) (k : Cert.ReferenceIdeal.dot_S100000x128_S128x128_S100000x128_1_0_0_1_n_n.contr.Idx) : (Cert.ReferenceIdeal.dot_S100000x128_S128x128_S100000x128_1_0_0_1_n_n.rhsIdx j k 1).val = (j 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl
/-- The first layer's host product reads as the plain sum. -/
theorem dot1_reads (x : FVec Ideal S100000x128 .f32) (w : FVec Ideal S128x128 .f32) (r : Fin 100000) (q : Fin 128) :
    Host.dotGeneral Cert.ReferenceIdeal.dot_S100000x128_S128x128_S100000x128_1_0_0_1_n_n none x w (ix2 r q) = ∑ k : Fin 128, x (ix2 r k) * w (ix2 k q) :=
  Cert.LibColumnBlocks.hostDot_apply Cert.ReferenceIdeal.dot_S100000x128_S128x128_S100000x128_1_0_0_1_n_n rfl rfl rfl rfl dot1_lhs0 dot1_rhs1 x w r q none

theorem dot2_lhs0 (j : S100000x64.Idx) (k : Cert.ReferenceIdeal.dot_S100000x128_S128x64_S100000x64_1_0_0_1_n_n.contr.Idx) : (Cert.ReferenceIdeal.dot_S100000x128_S128x64_S100000x64_1_0_0_1_n_n.lhsIdx j k 0).val = (j 0).val := by
  unfold DotDims.lhsIdx
  rw [dif_neg (show ¬(0 : Fin S100000x128.rank) ∈ Cert.ReferenceIdeal.dot_S100000x128_S128x64_S100000x64_1_0_0_1_n_n.lhsBatch by decide), dif_pos (show (0 : Fin S100000x128.rank) ∈ Cert.ReferenceIdeal.dot_S100000x128_S128x64_S100000x64_1_0_0_1_n_n.lhsNonContracting by decide)]
  rfl
theorem dot2_rhs1 (j : S100000x64.Idx) (k : Cert.ReferenceIdeal.dot_S100000x128_S128x64_S100000x64_1_0_0_1_n_n.contr.Idx) : (Cert.ReferenceIdeal.dot_S100000x128_S128x64_S100000x64_1_0_0_1_n_n.rhsIdx j k 1).val = (j 1).val := by
  unfold DotDims.rhsIdx
  rw [dif_neg (show ¬(1 : Fin S128x64.rank) ∈ Cert.ReferenceIdeal.dot_S100000x128_S128x64_S100000x64_1_0_0_1_n_n.rhsBatch by decide), dif_pos (show (1 : Fin S128x64.rank) ∈ Cert.ReferenceIdeal.dot_S100000x128_S128x64_S100000x64_1_0_0_1_n_n.rhsNonContracting by decide)]
  rfl
/-- The second layer's host product reads as the plain sum. -/
theorem dot2_reads (x : FVec Ideal S100000x128 .f32) (w : FVec Ideal S128x64 .f32) (r : Fin 100000) (q : Fin 64) :
    Host.dotGeneral Cert.ReferenceIdeal.dot_S100000x128_S128x64_S100000x64_1_0_0_1_n_n none x w (ix2 r q) = ∑ k : Fin 128, x (ix2 r k) * w (ix2 k q) :=
  Cert.LibColumnBlocks.hostDot_apply Cert.ReferenceIdeal.dot_S100000x128_S128x64_S100000x64_1_0_0_1_n_n rfl rfl rfl rfl dot2_lhs0 dot2_rhs1 x w r q none

/-! ## The reference's term -/

variable {F : FTy → Type} [FloatOps F]

set_option maxHeartbeats 4000000 in
/-- The reference's composed term is the specification's output of the arguments. -/
theorem result_eq (m : (ℓ : Loc nD τ sig) → Buf (Elt F) ℓ) (c : Dev nD) :
    Cert.ReferenceIdeal.ValueP.res_main_v63 m c
      = Cert.KernelIdeal.Spec.output (F := F) Cert.ReferenceIdeal.dot_S100000x128_S128x128_S100000x128_1_0_0_1_n_n Cert.ReferenceIdeal.dot_S100000x128_S128x64_S100000x64_1_0_0_1_n_n
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v63
  rfl

end Cert.ReferenceIdeal.RefSpec

end
-- ==== Proof.Dense128.lean ====
/-
  Region 0 of the idealized kernel: the first dense layer, `x · W` with `x : [100000, 128]` and `W : [128, 128]`.

  The region's grid has 25 points; point `t` fetches rows `4000 t … 4000 t + 3999` of `x` and all of `W`, multiplies the
  tile by `W` into a zero accumulator (over the extended reals a change of float format is the identity, so the tile's
  entry `(p, q)` is `∑ₖ x(4000 t + p, k) · W(k, q)`), and writes the tile back to the same rows of the output. The tiles
  cover the rows, so the output array ends at `∑ₖ x(r, k) · W(k, q)` everywhere, which is what the host's one matrix
  product of the whole arrays reads at `(r, q)`. The host product is taken with any dimension record `d` for which it
  reads as that sum (`hd`); the assembly supplies the reference program's record.
-/
import proofs.«147359_j16887811408593_1_alg».proof.Proof.Gen.KernelIdeal.Frame
import proofs.«147359_j16887811408593_1_alg».proof.Proof.LibColumnBlocks
import Idealize.ShloMosaic.Lib.Pipeline.Value
import Idealize.ShloMosaic.Lib.ValueIdx
import Idealize.ShloMosaic.PureOps.Ideal.Laws

set_option maxRecDepth 16384

noncomputable section

namespace Cert.KernelIdeal.Dense128

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The tile product's left operand is read at the output's row … -/
theorem tile_lhs0 (j : S4000x128.Idx) (k : dot_S4000x128_S128x128_S4000x128_1_0_0_1_n_n.contr.Idx) :
    (dot_S4000x128_S128x128_S4000x128_1_0_0_1_n_n.lhsIdx j k 0).val = (j 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and its right operand at the output's column. -/
theorem tile_rhs1 (j : S4000x128.Idx) (k : dot_S4000x128_S128x128_S4000x128_1_0_0_1_n_n.contr.Idx) :
    (dot_S4000x128_S128x128_S4000x128_1_0_0_1_n_n.rhsIdx j k 1).val = (j 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- One tile's entry `(p, q)`: row `p` of the fetched rows against column `q` of the weights. -/
theorem tile_apply (x0 : Vec Ideal S4000x128 .f32) (x2 : Vec Ideal S128x128 .f32) (p : Fin 4000) (q : Fin 128) :
    k0_pay1 x0 x2 (ix2 p q) = ∑ k : Fin 128, x0 (ix2 p k) * x2 (ix2 k q) := by
  unfold k0_pay1
  exact Cert.LibColumnBlocks.matmul_zero_apply dot_S4000x128_S128x128_S4000x128_1_0_0_1_n_n rfl rfl rfl rfl tile_lhs0 tile_rhs1
    (truncf .bf16 x0 bitsLt_bf16_f32) (truncf .bf16 x2 bitsLt_bf16_f32) p q none

/-- The host's product of the whole arrays, over the extended reals. -/
abbrev product (d : DotDims S100000x128 S128x128 S100000x128) (x : FVec Ideal S100000x128 .f32) (w : FVec Ideal S128x128 .f32) :
    FVec Ideal S100000x128 .f32 := Host.dotGeneral d none x w

/-- Point `t` reads block row `t` of `x`, all of `W`, and writes block row `t` of the output. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the host's product of the whole arrays. -/
theorem flushed_eq (d : DotDims S100000x128 S128x128 S100000x128)
    (hd : ∀ (x : FVec Ideal S100000x128 .f32) (w : FVec Ideal S128x128 .f32) (r : Fin 100000) (q : Fin 128),
      Host.dotGeneral d none x w (ix2 r q) = ∑ k : Fin 128, x (ix2 r k) * w (ix2 k q))
    (c : Dev nD) (t : Fin cfg0.N) :
    (dat0 V c).flushed 2 t = ((cfg0.win 2).blk t).view.read (Elt Ideal) (product d (V c main_arg0) (V c main_arg2)) := by
  show (cfg0.win 2).cut (grid0.coords t) ((dat0 V c).after 2 t) = _
  rw [after0_2]
  unfold out0_2
  rw [View.canon_unit_zero zero_offsets]
  simp only [View.ld_unit_zero (S := S4000x128) zero_offsets, View.ld_unit_zero (S := S128x128) zero_offsets]
  obtain ⟨e0, e1, e2, e3, e4, e5⟩ := block_indices t
  have ht : t.val < 25 := by have h := t.isLt; have hN : cfg0.N = 25 := N_0; omega
  funext j
  obtain ⟨p, q, rfl⟩ : ∃ (p : Fin 4000) (q : Fin 128), j = ix2 p q := ⟨j 0, j 1, eq_ix2 j⟩
  show k0_pay1 (iblk0 V c 0 t) (iblk0 V c 1 t) (ix2 p q) = product d (V c main_arg0) (V c main_arg2) (((cfg0.win 2).blk t).view.emb (ix2 p q))
  refine (tile_apply (iblk0 V c 0 t) (iblk0 V c 1 t) p q).trans ?_
  have hp : p.val < 4000 := p.isLt
  have hrow : t.val * 4000 + p.val < 100000 := by omega
  have hout : ((cfg0.win 2).blk t).view.emb (ix2 p q) = ix2 (⟨t.val * 4000 + p.val, hrow⟩ : Fin 100000) q := by
    funext a; apply Fin.ext
    match a with
    | ⟨0, _⟩ => show win0_2.index t (0 : Fin 2) * 4000 + 1 * p.val = t.val * 4000 + p.val; omega
    | ⟨1, _⟩ => show win0_2.index t (1 : Fin 2) * 128 + 1 * q.val = q.val; omega
  rw [hout]
  refine Eq.trans ?_ (hd (V c main_arg0) (V c main_arg2) ⟨t.val * 4000 + p.val, hrow⟩ q).symm
  refine Finset.sum_congr rfl fun k _ => ?_
  have hx : iblk0 V c 0 t (ix2 p k) = V c main_arg0 (ix2 (⟨t.val * 4000 + p.val, hrow⟩ : Fin 100000) k) := by
    show V c main_arg0 (((cfg0.win 0).blk t).view.emb (ix2 p k)) = _
    refine congrArg (V c main_arg0) ?_
    funext a; apply Fin.ext
    match a with
    | ⟨0, _⟩ => show win0_0.index t (0 : Fin 2) * 4000 + 1 * p.val = t.val * 4000 + p.val; omega
    | ⟨1, _⟩ => show win0_0.index t (1 : Fin 2) * 128 + 1 * k.val = k.val; omega
  have hw : iblk0 V c 1 t (ix2 k q) = V c main_arg2 (ix2 k q) := by
    show V c main_arg2 (((cfg0.win 1).blk t).view.emb (ix2 k q)) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [hx, hw]

/-- An index of the output array is in point `t`'s block iff its row is among the block's 4000 rows. -/
theorem mem_block (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v30).slice (win0_2.rect t)).set ↔ _
  rw [View.set_slice_whole, Rect.mem_set_unit]
  exact Iff.rfl

/-- Every row of the output is in the block of the point its row number, divided by 4000, names. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_2 _, ?_⟩
  obtain ⟨e0, e1, e2, e3, e4, e5⟩ := block_indices ⟨(i 0).val / 4000, by rw [hN]; omega⟩
  rw [mem_block]
  intro a
  match a with
  | ⟨0, _⟩ => show win0_2.index _ (0 : Fin 2) * 4000 ≤ (i 0).val ∧ (i 0).val < win0_2.index _ (0 : Fin 2) * 4000 + 4000; rw [e4]; show (i 0).val / 4000 * 4000 ≤ (i 0).val ∧ (i 0).val < (i 0).val / 4000 * 4000 + 4000; omega
  | ⟨1, _⟩ => show win0_2.index _ (1 : Fin 2) * 128 ≤ (i 1).val ∧ (i 1).val < win0_2.index _ (1 : Fin 2) * 128 + 128; rw [e5]; omega

/-- The output array after the region: the host's product of the two arrays the region found. -/
theorem array_eq (d : DotDims S100000x128 S128x128 S100000x128)
    (hd : ∀ (x : FVec Ideal S100000x128 .f32) (w : FVec Ideal S128x128 .f32) (r : Fin 100000) (q : Fin 128),
      Host.dotGeneral d none x w (ix2 r q) = ∑ k : Fin 128, x (ix2 r k) * w (ix2 k q))
    (c : Dev nD) :
    (dat0 V c).arrAt 2 cfg0.N = product d (V c main_arg0) (V c main_arg2) :=
  (dat0 V c).arrAt_eq_of_cover 2 (product d (V c main_arg0) (V c main_arg2)) (fun t _ => flushed_eq V d hd c t) covered

end Cert.KernelIdeal.Dense128

end
-- ==== Proof.Dense64.lean ====
/-
  Region 2 of the idealized kernel: the bias, the rectifier and the second dense layer, `max(a + b, 0) · W` with the
  aggregated rows `a : [100000, 128]`, the bias `b : [1, 128]` and `W : [128, 64]`.

  The region's grid has 25 points; point `t` fetches rows `4000 t … 4000 t + 3999` of `a`, all of `b` and all of `W`, adds
  the bias row to every fetched row, takes the maximum with zero, multiplies the tile by `W` into a zero accumulator (over
  the extended reals a change of float format is the identity), and writes the tile back to the same rows of the output:
  entry `(p, q)` of the tile is `∑ₖ max(a(4000 t + p, k) + b(0, k), 0) · W(k, q)`. The tiles cover the rows, so the output
  array ends at `∑ₖ max(a(r, k) + b(0, k), 0) · W(k, q)` everywhere, which is what the host's one matrix product of the
  rectified whole array with `W` reads at `(r, q)`. The host product is taken with any dimension record `d` for which it
  reads as the plain sum (`hd`), and the two stretches (of the bias row over the rows, of the zero over the array) with any
  witnesses of their side conditions; the assembly supplies the reference program's.
-/
import proofs.«147359_j16887811408593_1_alg».proof.Proof.Gen.KernelIdeal.Frame
import proofs.«147359_j16887811408593_1_alg».proof.Proof.LibColumnBlocks
import Idealize.ShloMosaic.Lib.Pipeline.Value
import Idealize.ShloMosaic.Lib.ValueIdx
import Idealize.ShloMosaic.PureOps.Ideal.Laws

set_option maxRecDepth 16384

noncomputable section

namespace Cert.KernelIdeal.Dense64

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The tile product's left operand is read at the output's row … -/
theorem tile_lhs0 (j : S4000x64.Idx) (k : dot_S4000x128_S128x64_S4000x64_1_0_0_1_n_n.contr.Idx) :
    (dot_S4000x128_S128x64_S4000x64_1_0_0_1_n_n.lhsIdx j k 0).val = (j 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- … and its right operand at the output's column. -/
theorem tile_rhs1 (j : S4000x64.Idx) (k : dot_S4000x128_S128x64_S4000x64_1_0_0_1_n_n.contr.Idx) :
    (dot_S4000x128_S128x64_S4000x64_1_0_0_1_n_n.rhsIdx j k 1).val = (j 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- One tile's entry `(p, q)`: the rectified row `p` against column `q` of the weights. -/
theorem tile_apply (b : Vec Ideal S1x128 .f32) (x : Vec Ideal S4000x128 .f32) (w : Vec Ideal S128x64 .f32) (p : Fin 4000) (q : Fin 64) :
    k2_pay1 b x w (ix2 p q) = ∑ k : Fin 128, max (x (ix2 p k) + b (ix2 0 k)) (Ideal.ofBits .f32 0x00000000#32) * w (ix2 k q) := by
  unfold k2_pay1
  simp only [shapeCast_self]
  refine (Cert.LibColumnBlocks.matmul_zero_apply dot_S4000x128_S128x64_S4000x64_1_0_0_1_n_n rfl rfl rfl rfl tile_lhs0 tile_rhs1
    _ _ p q none).trans ?_
  refine Finset.sum_congr rfl fun k _ => ?_
  show max (x (ix2 p k) + broadcastTo S4000x128 b broadcasts_S1x128_S4000x128 (ix2 p k)) (Ideal.ofBits .f32 0x00000000#32) * w (ix2 k q) = _
  rw [broadcastTo_apply b broadcasts_S1x128_S4000x128 (ix2 p k) (ix2 0 k) (fun a => by
    match a with
    | ⟨0, _⟩ => rfl
    | ⟨1, _⟩ => rfl)]

/-- The rectified whole array: the aggregated rows plus the bias row stretched over the rows, against zero. -/
abbrev rectified (hb : S1x128.BroadcastsInDim S100000x128 (![0, 1] : Fin 2 → Fin S100000x128.rank))
    (hz : S_.BroadcastsInDim S100000x128 (![] : Fin 0 → Fin S100000x128.rank))
    (a : FVec Ideal S100000x128 .f32) (b : FVec Ideal S1x128 .f32) : FVec Ideal S100000x128 .f32 :=
  maximumf (addf a (broadcastInDim S100000x128 ![0, 1] hb b)) (broadcastInDim S100000x128 ![] hz (constant S_ .f32 0x00000000#32))

/-- It reads, at row `r` and column `k`, the maximum of the biased entry and zero. -/
theorem rectified_apply (hb : S1x128.BroadcastsInDim S100000x128 (![0, 1] : Fin 2 → Fin S100000x128.rank))
    (hz : S_.BroadcastsInDim S100000x128 (![] : Fin 0 → Fin S100000x128.rank))
    (a : FVec Ideal S100000x128 .f32) (b : FVec Ideal S1x128 .f32) (r : Fin 100000) (k : Fin 128) :
    rectified hb hz a b (ix2 r k) = max (a (ix2 r k) + b (ix2 0 k)) (Ideal.ofBits .f32 0x00000000#32) := by
  show max (a (ix2 r k) + broadcastInDim S100000x128 ![0, 1] hb b (ix2 r k)) (Ideal.ofBits .f32 0x00000000#32) = _
  rw [broadcastInDim_apply ![0, 1] hb b (ix2 r k) (ix2 0 k) (fun a => by
    match a with
    | ⟨0, _⟩ => rfl
    | ⟨1, _⟩ => rfl)]

/-- The host's product of a whole `[100000, 128]` array with the weights, over the extended reals. -/
abbrev product (d : DotDims S100000x128 S128x64 S100000x64) (x : FVec Ideal S100000x128 .f32) (w : FVec Ideal S128x64 .f32) :
    FVec Ideal S100000x64 .f32 := Host.dotGeneral d none x w

/-- Point `t` reads block row `t` of the aggregated rows, all of the bias and of `W`, and writes block row `t` of the output. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the host's product of the rectified whole array with the weights. -/
theorem flushed_eq (hb : S1x128.BroadcastsInDim S100000x128 (![0, 1] : Fin 2 → Fin S100000x128.rank))
    (hz : S_.BroadcastsInDim S100000x128 (![] : Fin 0 → Fin S100000x128.rank))
    (d : DotDims S100000x128 S128x64 S100000x64)
    (hd : ∀ (x : FVec Ideal S100000x128 .f32) (w : FVec Ideal S128x64 .f32) (r : Fin 100000) (q : Fin 64),
      Host.dotGeneral d none x w (ix2 r q) = ∑ k : Fin 128, x (ix2 r k) * w (ix2 k q))
    (c : Dev nD) (t : Fin cfg2.N) :
    (dat2 V c).flushed 3 t = ((cfg2.win 3).blk t).view.read (Elt Ideal)
      (product d (rectified hb hz (V c main_v41) (V c main_v42)) (V c main_arg4)) := by
  show (cfg2.win 3).cut (grid2.coords t) ((dat2 V c).after 3 t) = _
  rw [after2_3]
  unfold out2_3
  rw [View.canon_unit_zero zero_offsets]
  simp only [View.ld_unit_zero (S := S4000x128) zero_offsets, View.ld_unit_zero (S := S1x128) zero_offsets, View.ld_unit_zero (S := S128x64) zero_offsets]
  obtain ⟨e0, e1, e2, e3, e4, e5, e6, e7⟩ := block_indices t
  have ht : t.val < 25 := by have h := t.isLt; have hN : cfg2.N = 25 := N_2; omega
  funext j
  obtain ⟨p, q, rfl⟩ : ∃ (p : Fin 4000) (q : Fin 64), j = ix2 p q := ⟨j 0, j 1, eq_ix2 j⟩
  show k2_pay1 (iblk2 V c 1 t) (iblk2 V c 0 t) (iblk2 V c 2 t) (ix2 p q)
    = product d (rectified hb hz (V c main_v41) (V c main_v42)) (V c main_arg4) (((cfg2.win 3).blk t).view.emb (ix2 p q))
  refine (tile_apply (iblk2 V c 1 t) (iblk2 V c 0 t) (iblk2 V c 2 t) p q).trans ?_
  have hp : p.val < 4000 := p.isLt
  have hrow : t.val * 4000 + p.val < 100000 := by omega
  have hout : ((cfg2.win 3).blk t).view.emb (ix2 p q) = ix2 (⟨t.val * 4000 + p.val, hrow⟩ : Fin 100000) q := by
    funext a; apply Fin.ext
    match a with
    | ⟨0, _⟩ => show win2_3.index t (0 : Fin 2) * 4000 + 1 * p.val = t.val * 4000 + p.val; omega
    | ⟨1, _⟩ => show win2_3.index t (1 : Fin 2) * 64 + 1 * q.val = q.val; omega
  rw [hout]
  refine Eq.trans ?_ (hd (rectified hb hz (V c main_v41) (V c main_v42)) (V c main_arg4) ⟨t.val * 4000 + p.val, hrow⟩ q).symm
  refine Finset.sum_congr rfl fun k _ => ?_
  have ha : iblk2 V c 0 t (ix2 p k) = V c main_v41 (ix2 (⟨t.val * 4000 + p.val, hrow⟩ : Fin 100000) k) := by
    show V c main_v41 (((cfg2.win 0).blk t).view.emb (ix2 p k)) = _
    refine congrArg (V c main_v41) ?_
    funext a; apply Fin.ext
    match a with
    | ⟨0, _⟩ => show win2_0.index t (0 : Fin 2) * 4000 + 1 * p.val = t.val * 4000 + p.val; omega
    | ⟨1, _⟩ => show win2_0.index t (1 : Fin 2) * 128 + 1 * k.val = k.val; omega
  have hbias : iblk2 V c 1 t (ix2 0 k) = V c main_v42 (ix2 0 k) := by
    show V c main_v42 (((cfg2.win 1).blk t).view.emb (ix2 0 k)) = _
    refine congrArg (V c main_v42) ?_
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have hw : iblk2 V c 2 t (ix2 k q) = V c main_arg4 (ix2 k q) := by
    show V c main_arg4 (((cfg2.win 2).blk t).view.emb (ix2 k q)) = _
    refine congrArg (V c main_arg4) ?_
    funext a; apply Fin.ext
    match a with
    | ⟨0, _⟩ => show win2_2.index t (0 : Fin 2) * 128 + 1 * k.val = k.val; omega
    | ⟨1, _⟩ => show win2_2.index t (1 : Fin 2) * 64 + 1 * q.val = q.val; omega
  rw [ha, hbias, hw, rectified_apply]

/-- An index of the output array is in point `t`'s block iff its row is among the block's 4000 rows. -/
theorem mem_block (t : Fin cfg2.N) (i : S100000x64.Idx) :
    i ∈ ((cfg2.win 3).blk t).view.set ↔ ∀ a : Fin 2, win2_3.index t a * S4000x64.size a ≤ (i a).val ∧ (i a).val < win2_3.index t a * S4000x64.size a + S4000x64.size a := by
  show i ∈ ((View.whole main_v43).slice (win2_3.rect t)).set ↔ _
  rw [View.set_slice_whole, Rect.mem_set_unit]
  exact Iff.rfl

/-- Every row of the output is in the block of the point its row number, divided by 4000, names. -/
theorem covered (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 25 := N_2
  refine ⟨⟨(i 0).val / 4000, by rw [hN]; omega⟩, flush2_3 _, ?_⟩
  obtain ⟨e0, e1, e2, e3, e4, e5, e6, e7⟩ := block_indices ⟨(i 0).val / 4000, by rw [hN]; omega⟩
  rw [mem_block]
  intro a
  match a with
  | ⟨0, _⟩ => show win2_3.index _ (0 : Fin 2) * 4000 ≤ (i 0).val ∧ (i 0).val < win2_3.index _ (0 : Fin 2) * 4000 + 4000; rw [e6]; show (i 0).val / 4000 * 4000 ≤ (i 0).val ∧ (i 0).val < (i 0).val / 4000 * 4000 + 4000; omega
  | ⟨1, _⟩ => show win2_3.index _ (1 : Fin 2) * 64 ≤ (i 1).val ∧ (i 1).val < win2_3.index _ (1 : Fin 2) * 64 + 64; rw [e7]; omega

/-- The output array after the region: the host's product of the rectified array with the weights, of the arrays the region found. -/
theorem array_eq (hb : S1x128.BroadcastsInDim S100000x128 (![0, 1] : Fin 2 → Fin S100000x128.rank))
    (hz : S_.BroadcastsInDim S100000x128 (![] : Fin 0 → Fin S100000x128.rank))
    (d : DotDims S100000x128 S128x64 S100000x64)
    (hd : ∀ (x : FVec Ideal S100000x128 .f32) (w : FVec Ideal S128x64 .f32) (r : Fin 100000) (q : Fin 64),
      Host.dotGeneral d none x w (ix2 r q) = ∑ k : Fin 128, x (ix2 r k) * w (ix2 k q))
    (c : Dev nD) :
    (dat2 V c).arrAt 3 cfg2.N = product d (rectified hb hz (V c main_v41) (V c main_v42)) (V c main_arg4) :=
  (dat2 V c).arrAt_eq_of_cover 3 (product d (rectified hb hz (V c main_v41) (V c main_v42)) (V c main_arg4)) (fun t _ => flushed_eq V hb hz d hd c t) covered

end Cert.KernelIdeal.Dense64

end
-- ==== Proof.Scale128.lean ====
/-
  Region 1 of the idealized kernel: every edge's gathered row of width 128 times that edge's weight.

  The region's grid has 200 points; point `t` fetches rows `8000 t … 8000 t + 7999` of the gathered rows `g : [1600000, 128]` and
  of the weight column `n : [1600000, 1]`, multiplies each row by its weight (the weight stretched along the row), and
  writes the 8000 products back to the same rows of the output. The blocks tile the rows, so the output array ends at
  `g(e, d) · n(e, 0)` everywhere: the elementwise product of `g` with `n` stretched to `[1600000, 128]`, which is how the
  host program spells the same scaling.
-/
import proofs.«147359_j16887811408593_1_alg».proof.Proof.Gen.KernelIdeal.Frame
import Idealize.ShloMosaic.Lib.Pipeline.Value
import Idealize.ShloMosaic.Lib.ValueIdx

set_option maxRecDepth 16384

noncomputable section

namespace Cert.KernelIdeal.Scale128

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))
-- the stretch of a column along the rows is a broadcast in dimensions; any witness of its side condition will do
variable (hb : S1600000x1.BroadcastsInDim S1600000x128 (![0, 1] : Fin 2 → Fin S1600000x128.rank))

theorem zero_offsets : (![0, 0] : Fin 2 → Nat) = fun _ => 0 := funext fun a => by fin_cases a <;> rfl

/-- One block's product at row `p`, column `q`: the gathered entry times the row's weight. -/
theorem block_apply (x0 : Vec Ideal S8000x1 .f32) (x4 : Vec Ideal S8000x128 .f32) (p : Fin 8000) (q : Fin 128) :
    k1_pay1 x0 x4 (ix2 p q) = x4 (ix2 p q) * x0 (ix2 p 0) := by
  unfold k1_pay1
  simp only [shapeCast_self, mulf_apply]
  refine congrArg (x4 (ix2 p q) * ·) ?_
  exact broadcastTo_apply x0 broadcasts_S8000x1_S8000x128 (ix2 p q) (ix2 p 0) (fun a => by
    match a with
    | ⟨0, _⟩ => rfl
    | ⟨1, _⟩ => rfl)

/-- The whole array's product: the gathered rows times the weight column stretched along the rows. -/
abbrev scaled (g : FVec Ideal S1600000x128 .f32) (n : FVec Ideal S1600000x1 .f32) : FVec Ideal S1600000x128 .f32 :=
  mulf g (broadcastInDim S1600000x128 ![0, 1] hb n)

/-- It reads, at edge `e` and column `d`, the gathered entry times the edge's weight. -/
theorem scaled_apply (g : FVec Ideal S1600000x128 .f32) (n : FVec Ideal S1600000x1 .f32) (e : Fin 1600000) (d : Fin 128) :
    scaled hb g n (ix2 e d) = g (ix2 e d) * n (ix2 e 0) := by
  show g (ix2 e d) * broadcastInDim S1600000x128 ![0, 1] hb n (ix2 e d) = _
  refine congrArg (g (ix2 e d) * ·) ?_
  exact broadcastInDim_apply ![0, 1] hb n (ix2 e d) (ix2 e 0) (fun a => by
    match a with
    | ⟨0, _⟩ => rfl
    | ⟨1, _⟩ => rfl)

/-- The three windows' blocks at point `t` are block row `t`, block column 0. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole array's product. -/
theorem flushed_eq (c : Dev nD) (t : Fin cfg1.N) :
    (dat1 V c).flushed 2 t = ((cfg1.win 2).blk t).view.read (Elt Ideal) (scaled hb (V c main_v37) (V c main_v29)) := by
  show (cfg1.win 2).cut (grid1.coords t) ((dat1 V c).after 2 t) = _
  rw [after1_2]
  unfold out1_2
  rw [View.canon_unit_zero zero_offsets]
  simp only [View.ld_unit_zero (S := S8000x128) zero_offsets, View.ld_unit_zero (S := S8000x1) zero_offsets]
  obtain ⟨e0, e1, e2, e3, e4, e5⟩ := block_indices t
  have ht : t.val < 200 := by have h := t.isLt; have hN : cfg1.N = 200 := N_1; omega
  funext j
  obtain ⟨p, q, rfl⟩ : ∃ (p : Fin 8000) (q : Fin 128), j = ix2 p q := ⟨j 0, j 1, eq_ix2 j⟩
  show k1_pay1 (iblk1 V c 1 t) (iblk1 V c 0 t) (ix2 p q) = scaled hb (V c main_v37) (V c main_v29) (((cfg1.win 2).blk t).view.emb (ix2 p q))
  refine (block_apply (iblk1 V c 1 t) (iblk1 V c 0 t) p q).trans ?_
  have hp : p.val < 8000 := p.isLt
  have hrow : t.val * 8000 + p.val < 1600000 := by omega
  have hout : ((cfg1.win 2).blk t).view.emb (ix2 p q) = ix2 (⟨t.val * 8000 + p.val, hrow⟩ : Fin 1600000) q := by
    funext a; apply Fin.ext
    match a with
    | ⟨0, _⟩ => show win1_2.index t (0 : Fin 2) * 8000 + 1 * p.val = t.val * 8000 + p.val; omega
    | ⟨1, _⟩ => show win1_2.index t (1 : Fin 2) * 128 + 1 * q.val = q.val; omega
  have hg : iblk1 V c 0 t (ix2 p q) = V c main_v37 (ix2 (⟨t.val * 8000 + p.val, hrow⟩ : Fin 1600000) q) := by
    show V c main_v37 (((cfg1.win 0).blk t).view.emb (ix2 p q)) = _
    refine congrArg (V c main_v37) ?_
    funext a; apply Fin.ext
    match a with
    | ⟨0, _⟩ => show win1_0.index t (0 : Fin 2) * 8000 + 1 * p.val = t.val * 8000 + p.val; omega
    | ⟨1, _⟩ => show win1_0.index t (1 : Fin 2) * 128 + 1 * q.val = q.val; omega
  have hn : iblk1 V c 1 t (ix2 p 0) = V c main_v29 (ix2 (⟨t.val * 8000 + p.val, hrow⟩ : Fin 1600000) 0) := by
    show V c main_v29 (((cfg1.win 1).blk t).view.emb (ix2 p 0)) = _
    refine congrArg (V c main_v29) ?_
    funext a; apply Fin.ext
    match a with
    | ⟨0, _⟩ => show win1_1.index t (0 : Fin 2) * 8000 + 1 * p.val = t.val * 8000 + p.val; omega
    | ⟨1, _⟩ => show win1_1.index t (1 : Fin 2) * 1 + 1 * 0 = 0; omega
  rw [hout, scaled_apply hb, hg, hn]

/-- An index of the output array is in point `t`'s block iff its row is among the block's 8000 rows. -/
theorem mem_block (t : Fin cfg1.N) (i : S1600000x128.Idx) :
    i ∈ ((cfg1.win 2).blk t).view.set ↔ ∀ a : Fin 2, win1_2.index t a * S8000x128.size a ≤ (i a).val ∧ (i a).val < win1_2.index t a * S8000x128.size a + S8000x128.size a := by
  show i ∈ ((View.whole main_v38).slice (win1_2.rect t)).set ↔ _
  rw [View.set_slice_whole, Rect.mem_set_unit]
  exact Iff.rfl

/-- Every row of the output is in the block of the point its row number, divided by 8000, names. -/
theorem covered (i : S1600000x128.Idx) : ∃ t : Fin cfg1.N, (cfg1.win 2).flush t = true ∧ i ∈ ((cfg1.win 2).blk t).view.set := by
  have hi0 : (i 0).val < 1600000 := (i 0).isLt
  have hi1 : (i 1).val < 128 := (i 1).isLt
  have hN : cfg1.N = 200 := N_1
  refine ⟨⟨(i 0).val / 8000, by rw [hN]; omega⟩, flush1_2 _, ?_⟩
  obtain ⟨e0, e1, e2, e3, e4, e5⟩ := block_indices ⟨(i 0).val / 8000, by rw [hN]; omega⟩
  rw [mem_block]
  intro a
  match a with
  | ⟨0, _⟩ => show win1_2.index _ (0 : Fin 2) * 8000 ≤ (i 0).val ∧ (i 0).val < win1_2.index _ (0 : Fin 2) * 8000 + 8000; rw [e4]; show (i 0).val / 8000 * 8000 ≤ (i 0).val ∧ (i 0).val < (i 0).val / 8000 * 8000 + 8000; omega
  | ⟨1, _⟩ => show win1_2.index _ (1 : Fin 2) * 128 ≤ (i 1).val ∧ (i 1).val < win1_2.index _ (1 : Fin 2) * 128 + 128; rw [e5]; omega

/-- The output array after the region: the gathered rows, found at the region's entry, times the stretched weights. -/
theorem array_eq (c : Dev nD) :
    (dat1 V c).arrAt 2 cfg1.N = scaled hb (V c main_v37) (V c main_v29) :=
  (dat1 V c).arrAt_eq_of_cover 2 (scaled hb (V c main_v37) (V c main_v29)) (fun t _ => flushed_eq V hb c t) covered

end Cert.KernelIdeal.Scale128

end
-- ==== Proof.Scale64.lean ====
/-
  Region 3 of the idealized kernel: every edge's gathered row of width 64 times that edge's weight.

  The region's grid has 200 points; point `t` fetches rows `8000 t … 8000 t + 7999` of the gathered rows `g : [1600000, 64]` and
  of the weight column `n : [1600000, 1]`, multiplies each row by its weight (the weight stretched along the row), and
  writes the 8000 products back to the same rows of the output. The blocks tile the rows, so the output array ends at
  `g(e, d) · n(e, 0)` everywhere: the elementwise product of `g` with `n` stretched to `[1600000, 64]`, which is how the
  host program spells the same scaling.
-/
import proofs.«147359_j16887811408593_1_alg».proof.Proof.Gen.KernelIdeal.Frame
import Idealize.ShloMosaic.Lib.Pipeline.Value
import Idealize.ShloMosaic.Lib.ValueIdx

set_option maxRecDepth 16384

noncomputable section

namespace Cert.KernelIdeal.Scale64

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))
-- the stretch of a column along the rows is a broadcast in dimensions; any witness of its side condition will do
variable (hb : S1600000x1.BroadcastsInDim S1600000x64 (![0, 1] : Fin 2 → Fin S1600000x64.rank))

theorem zero_offsets : (![0, 0] : Fin 2 → Nat) = fun _ => 0 := funext fun a => by fin_cases a <;> rfl

/-- One block's product at row `p`, column `q`: the gathered entry times the row's weight. -/
theorem block_apply (x0 : Vec Ideal S8000x1 .f32) (x4 : Vec Ideal S8000x64 .f32) (p : Fin 8000) (q : Fin 64) :
    k3_pay1 x0 x4 (ix2 p q) = x4 (ix2 p q) * x0 (ix2 p 0) := by
  unfold k3_pay1
  simp only [shapeCast_self, mulf_apply]
  refine congrArg (x4 (ix2 p q) * ·) ?_
  exact broadcastTo_apply x0 broadcasts_S8000x1_S8000x64 (ix2 p q) (ix2 p 0) (fun a => by
    match a with
    | ⟨0, _⟩ => rfl
    | ⟨1, _⟩ => rfl)

/-- The whole array's product: the gathered rows times the weight column stretched along the rows. -/
abbrev scaled (g : FVec Ideal S1600000x64 .f32) (n : FVec Ideal S1600000x1 .f32) : FVec Ideal S1600000x64 .f32 :=
  mulf g (broadcastInDim S1600000x64 ![0, 1] hb n)

/-- It reads, at edge `e` and column `d`, the gathered entry times the edge's weight. -/
theorem scaled_apply (g : FVec Ideal S1600000x64 .f32) (n : FVec Ideal S1600000x1 .f32) (e : Fin 1600000) (d : Fin 64) :
    scaled hb g n (ix2 e d) = g (ix2 e d) * n (ix2 e 0) := by
  show g (ix2 e d) * broadcastInDim S1600000x64 ![0, 1] hb n (ix2 e d) = _
  refine congrArg (g (ix2 e d) * ·) ?_
  exact broadcastInDim_apply ![0, 1] hb n (ix2 e d) (ix2 e 0) (fun a => by
    match a with
    | ⟨0, _⟩ => rfl
    | ⟨1, _⟩ => rfl)

/-- The three windows' blocks at point `t` are block row `t`, block column 0. -/
theorem block_indices : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole array's product. -/
theorem flushed_eq (c : Dev nD) (t : Fin cfg3.N) :
    (dat3 V c).flushed 2 t = ((cfg3.win 2).blk t).view.read (Elt Ideal) (scaled hb (V c main_v50) (V c main_v29)) := by
  show (cfg3.win 2).cut (grid3.coords t) ((dat3 V c).after 2 t) = _
  rw [after3_2]
  unfold out3_2
  rw [View.canon_unit_zero zero_offsets]
  simp only [View.ld_unit_zero (S := S8000x64) zero_offsets, View.ld_unit_zero (S := S8000x1) zero_offsets]
  obtain ⟨e0, e1, e2, e3, e4, e5⟩ := block_indices t
  have ht : t.val < 200 := by have h := t.isLt; have hN : cfg3.N = 200 := N_3; omega
  funext j
  obtain ⟨p, q, rfl⟩ : ∃ (p : Fin 8000) (q : Fin 64), j = ix2 p q := ⟨j 0, j 1, eq_ix2 j⟩
  show k3_pay1 (iblk3 V c 1 t) (iblk3 V c 0 t) (ix2 p q) = scaled hb (V c main_v50) (V c main_v29) (((cfg3.win 2).blk t).view.emb (ix2 p q))
  refine (block_apply (iblk3 V c 1 t) (iblk3 V c 0 t) p q).trans ?_
  have hp : p.val < 8000 := p.isLt
  have hrow : t.val * 8000 + p.val < 1600000 := by omega
  have hout : ((cfg3.win 2).blk t).view.emb (ix2 p q) = ix2 (⟨t.val * 8000 + p.val, hrow⟩ : Fin 1600000) q := by
    funext a; apply Fin.ext
    match a with
    | ⟨0, _⟩ => show win3_2.index t (0 : Fin 2) * 8000 + 1 * p.val = t.val * 8000 + p.val; omega
    | ⟨1, _⟩ => show win3_2.index t (1 : Fin 2) * 64 + 1 * q.val = q.val; omega
  have hg : iblk3 V c 0 t (ix2 p q) = V c main_v50 (ix2 (⟨t.val * 8000 + p.val, hrow⟩ : Fin 1600000) q) := by
    show V c main_v50 (((cfg3.win 0).blk t).view.emb (ix2 p q)) = _
    refine congrArg (V c main_v50) ?_
    funext a; apply Fin.ext
    match a with
    | ⟨0, _⟩ => show win3_0.index t (0 : Fin 2) * 8000 + 1 * p.val = t.val * 8000 + p.val; omega
    | ⟨1, _⟩ => show win3_0.index t (1 : Fin 2) * 64 + 1 * q.val = q.val; omega
  have hn : iblk3 V c 1 t (ix2 p 0) = V c main_v29 (ix2 (⟨t.val * 8000 + p.val, hrow⟩ : Fin 1600000) 0) := by
    show V c main_v29 (((cfg3.win 1).blk t).view.emb (ix2 p 0)) = _
    refine congrArg (V c main_v29) ?_
    funext a; apply Fin.ext
    match a with
    | ⟨0, _⟩ => show win3_1.index t (0 : Fin 2) * 8000 + 1 * p.val = t.val * 8000 + p.val; omega
    | ⟨1, _⟩ => show win3_1.index t (1 : Fin 2) * 1 + 1 * 0 = 0; omega
  rw [hout, scaled_apply hb, hg, hn]

/-- An index of the output array is in point `t`'s block iff its row is among the block's 8000 rows. -/
theorem mem_block (t : Fin cfg3.N) (i : S1600000x64.Idx) :
    i ∈ ((cfg3.win 2).blk t).view.set ↔ ∀ a : Fin 2, win3_2.index t a * S8000x64.size a ≤ (i a).val ∧ (i a).val < win3_2.index t a * S8000x64.size a + S8000x64.size a := by
  show i ∈ ((View.whole main_v51).slice (win3_2.rect t)).set ↔ _
  rw [View.set_slice_whole, Rect.mem_set_unit]
  exact Iff.rfl

/-- Every row of the output is in the block of the point its row number, divided by 8000, names. -/
theorem covered (i : S1600000x64.Idx) : ∃ t : Fin cfg3.N, (cfg3.win 2).flush t = true ∧ i ∈ ((cfg3.win 2).blk t).view.set := by
  have hi0 : (i 0).val < 1600000 := (i 0).isLt
  have hi1 : (i 1).val < 64 := (i 1).isLt
  have hN : cfg3.N = 200 := N_3
  refine ⟨⟨(i 0).val / 8000, by rw [hN]; omega⟩, flush3_2 _, ?_⟩
  obtain ⟨e0, e1, e2, e3, e4, e5⟩ := block_indices ⟨(i 0).val / 8000, by rw [hN]; omega⟩
  rw [mem_block]
  intro a
  match a with
  | ⟨0, _⟩ => show win3_2.index _ (0 : Fin 2) * 8000 ≤ (i 0).val ∧ (i 0).val < win3_2.index _ (0 : Fin 2) * 8000 + 8000; rw [e4]; show (i 0).val / 8000 * 8000 ≤ (i 0).val ∧ (i 0).val < (i 0).val / 8000 * 8000 + 8000; omega
  | ⟨1, _⟩ => show win3_2.index _ (1 : Fin 2) * 64 ≤ (i 1).val ∧ (i 1).val < win3_2.index _ (1 : Fin 2) * 64 + 64; rw [e5]; omega

/-- The output array after the region: the gathered rows, found at the region's entry, times the stretched weights. -/
theorem array_eq (c : Dev nD) :
    (dat3 V c).arrAt 2 cfg3.N = scaled hb (V c main_v50) (V c main_v29) :=
  (dat3 V c).arrAt_eq_of_cover 2 (scaled hb (V c main_v50) (V c main_v29)) (fun t _ => flushed_eq V hb c t) covered

end Cert.KernelIdeal.Scale64

end
-- ==== Proof.LibCastForms.lean ====
/-
  Columns, rows and their stretchings read at coordinates, and two ways of writing the same column or row.

  * A one-column matrix [A,1] stretched along the columns by a host `broadcast_in_dim` (dims 0,1) reads, at (a, b), its entry (a, 0);
    a one-row matrix [1,B] stretched along the rows (dims 0,1) reads, at (a, b), its entry (0, b).
  * A vector [B] placed as the one row of a [1,B] matrix by `broadcast_in_dim` (dims 1) reads, at (z, b), the vector at b.
  * A vector [A] recast as an [A,1] column IS the vector placed as a column by `broadcast_in_dim` (dims 0), as whole arrays;
    a vector [B] recast as a [1,B] row IS the vector placed as a row by `broadcast_in_dim` (dims 1), as whole arrays.
-/
import Idealize.ShloMosaic.Lib.ValueIdx
import Idealize.ShloMosaic.Lib.ValueLayout
import Idealize.ShloMosaic.Lib.Pipeline.Value

namespace Cert.LibCastForms

open Idealize.ShloMosaic Idealize.ShloMosaic.ValueIdx

variable {α : Type}

/-- A column stretched over B columns: entry (a, b) is the column's entry in row a. -/
theorem bcast_a1_ab_apply {A B : ℕ} (x : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 a (0 : Fin 1)) := by
  refine broadcastInDim_apply _ h x _ _ fun d => ?_
  match d with
  | ⟨0, _⟩ =>
    show a.val = if A = 1 then 0 else a.val
    split
    · have := a.isLt; omega
    · rfl
  | ⟨1, _⟩ => rfl

/-- A row stretched over A rows: entry (a, b) is the row's entry in column b. -/
theorem bcast_1b_ab_apply {A B : ℕ} (x : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 (0 : Fin 1) b) := by
  refine broadcastInDim_apply _ h x _ _ fun d => ?_
  match d with
  | ⟨0, _⟩ => rfl
  | ⟨1, _⟩ =>
    show b.val = if B = 1 then 0 else b.val
    split
    · have := b.isLt; omega
    · rfl

/-- A vector placed as the one row of a matrix: entry (z, b) is the vector's entry b. -/
theorem bcast_row {B : ℕ} (x : (⟨1, ![B]⟩ : Shape).Idx → α)
    (h : (⟨1, ![B]⟩ : Shape).BroadcastsInDim ⟨2, ![1, B]⟩ (![1] : Fin 1 → Fin 2)) (z : Fin 1) (b : Fin B) :
    broadcastInDim ⟨2, ![1, B]⟩ (![1] : Fin 1 → Fin 2) h x (ix2 z b) = x (ix1 b) := by
  refine broadcastInDim_apply _ h x _ _ fun d => ?_
  match d with
  | ⟨0, _⟩ =>
    show b.val = if B = 1 then 0 else b.val
    split
    · have := b.isLt; omega
    · rfl

/-- A vector placed as the one column of a matrix: entry (a, z) is the vector's entry a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    split
    · have := a.isLt; omega
    · rfl

/-- A vector recast as a column: entry (a, z) is the vector's entry a. -/
theorem cast_col {A : ℕ} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_one, Shape.rowMajor_val_two]
  have hz : z.val = 0 := by omega
  show a.val = a.val * 1 + z.val
  omega

/-- Recasting a vector as a column and placing it as a column are one array. -/
theorem col_cast_eq_bcast {A : ℕ} (x : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ x h = broadcastInDim ⟨2, ![A, 1]⟩ (![0] : Fin 1 → Fin 2) h' x := by
  funext j
  obtain ⟨a, z, rfl⟩ : ∃ (a : Fin A) (z : Fin 1), j = ix2 a z := ⟨j 0, j 1, eq_ix2 j⟩
  rw [cast_col, bcast_col]

/-- Recasting a vector as a row and placing it as a row are one array. -/
theorem row_cast_eq_bcast {B : ℕ} (x : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) :
    shapeCast ⟨2, ![1, B]⟩ x h = broadcastInDim ⟨2, ![1, B]⟩ (![1] : Fin 1 → Fin 2) h' x := by
  funext j
  obtain ⟨z, b, rfl⟩ : ∃ (z : Fin 1) (b : Fin B), j = ix2 z b := ⟨j 0, j 1, eq_ix2 j⟩
  rw [shapeCast_a_1a_apply, bcast_row]

end Cert.LibCastForms
-- ==== Proof.Chain.lean ====
/-
  The idealized kernel's result, read back through @main, is the graph convolution of the arguments.

  @main alternates stretches of host operations with four pipelined regions. At each boundary the buffers hold a known
  valuation (`W3` … `W11` of the generated frame: a stretch applies its operations, a region replaces its output array by
  what its write-backs leave and keeps every other buffer). Reading the result buffer back:
    * after the last stretch it is the second aggregation plus the bias, over region 3's output;
    * region 3's output is the gathered rows of region 2's output times the edge weights; region 2's output is the
      rectified, biased first aggregation times `W2`; and so on down to region 0's `x · W1`;
    * the edge list's two rows, the weight column and the arguments are written once, before region 0, and only
      carried through the later segments: no later host operation writes them, no region has them as an output.
  The weight column and the two bias rows reach the regions recast (`[E] → [E,1]`, `[D] → [1,D]`), which as whole arrays
  is the same as placing the vector along the new axis, the spelling the specification uses.
-/
import proofs.«147359_j16887811408593_1_alg».proof.Proof.Gen.KernelIdeal.Frame
import proofs.«147359_j16887811408593_1_alg».proof.Proof.Spec
import proofs.«147359_j16887811408593_1_alg».proof.Proof.Dense128
import proofs.«147359_j16887811408593_1_alg».proof.Proof.Dense64
import proofs.«147359_j16887811408593_1_alg».proof.Proof.Scale128
import proofs.«147359_j16887811408593_1_alg».proof.Proof.Scale64
import proofs.«147359_j16887811408593_1_alg».proof.Proof.LibCastForms
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Spec

/-! ## Each stretch of host operations, from ANY buffer contents `Wv`: what it writes, of what it reads; what it keeps -/

section Stretches
variable (Wv : Valuation τ sig (Elt Ideal))

/-! ### Before region 0: the edge list's rows, the degrees, the weights -/

theorem first_src (e : IVec S2x1600000 32) (he : Wv (Proc.devRef .tc main_arg1) = e) : StableHlo.after hostOps0 Wv (Proc.devRef .tc main_v1) = srcRow e := by
  after_results; rw [he]; rfl
theorem first_dst (e : IVec S2x1600000 32) (he : Wv (Proc.devRef .tc main_arg1) = e) : StableHlo.after hostOps0 Wv (Proc.devRef .tc main_v3) = dstRow e := by
  after_results; rw [he]; rfl
/-- Where the in-degree is positive. -/
theorem first_mask (e : IVec S2x1600000 32) (he : Wv (Proc.devRef .tc main_arg1) = e) :
    StableHlo.after hostOps0 Wv (Proc.devRef .tc main_v9) = cmpf (F := Ideal) .ogt (degree (F := Ideal) e) (broadcastInDim S100000 ![] bcast_S_S100000 (constant S_ .f32 0x00000000#32)) := by
  after_results; rw [he]; rfl
/-- `1/√max(deg, 1)`. -/
theorem first_rsqrt (e : IVec S2x1600000 32) (he : Wv (Proc.devRef .tc main_arg1) = e) :
    StableHlo.after hostOps0 Wv (Proc.devRef .tc main_v12) = Host.rsqrt (maximumf (degree (F := Ideal) e) (broadcastInDim S100000 ![] bcast_S_S100000 (constant S_ .f32 0x3F800000#32))) := by
  after_results; rw [he]; rfl
theorem first_zero : StableHlo.after hostOps0 Wv (Proc.devRef .tc main_cst_3) = (constant (F := Ideal) S_ .f32 0x00000000#32 : FVec Ideal S_ .f32) := by
  after_results
set_option maxHeartbeats 4000000 in
/-- The selection between the two: the called function's three operations. -/
theorem second_inv (M : IVec S100000 1) (X : FVec Ideal S100000 .f32) (Z : FVec Ideal S_ .f32)
    (hM : Wv (Proc.devRef .tc main_v9) = M) (hX : Wv (Proc.devRef .tc main_v12) = X) (hZ : Wv (Proc.devRef .tc main_cst_3) = Z) :
    StableHlo.after hostOps0_1 Wv (Proc.devRef .tc main_v13) = select M X (broadcastInDim S100000 ![] bcast_S_S100000 (id Z)) := by
  after_results_simp
  rw [hM, hX, hZ]
  rfl
set_option maxHeartbeats 4000000 in
/-- The weight column: per edge the value at its source times the value at its destination, recast `[E] → [E, 1]`, which
    as a whole array is the vector placed as a column. -/
theorem third_weight (D : FVec Ideal S100000 .f32) (s d : IVec S1600000 32)
    (hD : Wv (Proc.devRef .tc main_v13) = D) (hs : Wv (Proc.devRef .tc main_v1) = s) (hd : Wv (Proc.devRef .tc main_v3) = d) :
    StableHlo.after hostOps0_2 Wv (Proc.devRef .tc main_v29)
      = asColumn (mulf (Host.gather gather_S100000_S1600000x1_S1600000_n_0_n_n_0_1_1 D (asColumn (wrapped s))) (Host.gather gather_S100000_S1600000x1_S1600000_n_0_n_n_0_1_1 D (asColumn (wrapped d)))) := by
  refine Eq.trans ?_ (Cert.LibCastForms.col_cast_eq_bcast
    (mulf (Host.gather gather_S100000_S1600000x1_S1600000_n_0_n_n_0_1_1 D (asColumn (wrapped s))) (Host.gather gather_S100000_S1600000x1_S1600000_n_0_n_n_0_1_1 D (asColumn (wrapped d))))
    shapeCasts_S1600000_S1600000x1 bcast_S1600000_S1600000x1_0)
  after_results_simp
  rw [hD, hs, hd]
  rfl

/-! ### Between the regions -/

/-- Rows of width 128 gathered at the edges' sources. -/
theorem gather128 (H : FVec Ideal S100000x128 .f32) (s : IVec S1600000 32) (hH : Wv (Proc.devRef .tc main_v30) = H) (hs : Wv (Proc.devRef .tc main_v1) = s) :
    StableHlo.after hostOps1 Wv (Proc.devRef .tc main_v37) = Host.gather gather_S100000x128_S1600000x1_S1600000x128_1_0_n_n_0_1_1128 H (asColumn (wrapped s)) := by
  after_results; rw [hH, hs]; rfl
/-- Scaled rows of width 128 added at the edges' destinations. -/
theorem scatter128 (S : FVec Ideal S1600000x128 .f32) (d : IVec S1600000 32) (hS : Wv (Proc.devRef .tc main_v38) = S) (hd : Wv (Proc.devRef .tc main_v3) = d) :
    StableHlo.after hostOps2 Wv (Proc.devRef .tc main_v41) = Host.scatterAdd scatter_S100000x128_S1600000x1_S1600000x128_1_0_0_1 (broadcastInDim S100000x128 ![] bcast_S_S100000x128 (constant S_ .f32 0x00000000#32)) (asColumn d) S := by
  after_results; rw [hS, hd]; rfl
/-- The first bias recast `[128] → [1, 128]`, which as a whole array is the vector placed as a row. -/
theorem bias128 (b : FVec Ideal S128 .f32) (hb : Wv (Proc.devRef .tc main_arg3) = b) :
    StableHlo.after hostOps2 Wv (Proc.devRef .tc main_v42) = broadcastInDim S1x128 ![1] as_row128 b := by
  refine Eq.trans ?_ (Cert.LibCastForms.row_cast_eq_bcast b shapeCasts_S128_S1x128 as_row128)
  after_results; rw [hb]; rfl
/-- Rows of width 64 gathered at the edges' sources. -/
theorem gather64 (H : FVec Ideal S100000x64 .f32) (s : IVec S1600000 32) (hH : Wv (Proc.devRef .tc main_v43) = H) (hs : Wv (Proc.devRef .tc main_v1) = s) :
    StableHlo.after hostOps3 Wv (Proc.devRef .tc main_v50) = Host.gather gather_S100000x64_S1600000x1_S1600000x64_1_0_n_n_0_1_164 H (asColumn (wrapped s)) := by
  after_results; rw [hH, hs]; rfl
/-- The last stretch: scaled rows of width 64 added at the destinations, plus the second bias (recast `[64] → [1, 64]`, which
    as a whole array is the vector placed as a row) stretched over all nodes. -/
theorem last_out (S : FVec Ideal S1600000x64 .f32) (d : IVec S1600000 32) (b : FVec Ideal S64 .f32)
    (hS : Wv (Proc.devRef .tc main_v51) = S) (hd : Wv (Proc.devRef .tc main_v3) = d) (hb : Wv (Proc.devRef .tc main_arg5) = b) :
    StableHlo.after hostOps4 Wv (Proc.devRef .tc main_v57)
      = addf (Host.scatterAdd scatter_S100000x64_S1600000x1_S1600000x64_1_0_0_1 (broadcastInDim S100000x64 ![] bcast_S_S100000x64 (constant S_ .f32 0x00000000#32)) (asColumn d) S)
          (broadcastInDim S100000x64 ![0, 1] bcast_S1x64_S100000x64_0_1 (broadcastInDim S1x64 ![1] as_row64 b)) := by
  have hrow : (shapeCast S1x64 b shapeCasts_S64_S1x64 : FVec Ideal S1x64 .f32) = broadcastInDim S1x64 ![1] as_row64 b :=
    Cert.LibCastForms.row_cast_eq_bcast b shapeCasts_S64_S1x64 as_row64
  rw [← hrow]
  after_results; rw [hS, hd, hb]; rfl

/-! ### What each stretch keeps (it writes none of these) -/

theorem keep_hostOps0_main_arg0 : StableHlo.after hostOps0 Wv (Proc.devRef .tc main_arg0) = Wv (Proc.devRef .tc main_arg0) := by after_results
theorem keep_hostOps0_main_arg2 : StableHlo.after hostOps0 Wv (Proc.devRef .tc main_arg2) = Wv (Proc.devRef .tc main_arg2) := by after_results
theorem keep_hostOps0_main_arg3 : StableHlo.after hostOps0 Wv (Proc.devRef .tc main_arg3) = Wv (Proc.devRef .tc main_arg3) := by after_results
theorem keep_hostOps0_main_arg4 : StableHlo.after hostOps0 Wv (Proc.devRef .tc main_arg4) = Wv (Proc.devRef .tc main_arg4) := by after_results
theorem keep_hostOps0_1_main_v1 : StableHlo.after hostOps0_1 Wv (Proc.devRef .tc main_v1) = Wv (Proc.devRef .tc main_v1) := by after_results
theorem keep_hostOps0_1_main_v3 : StableHlo.after hostOps0_1 Wv (Proc.devRef .tc main_v3) = Wv (Proc.devRef .tc main_v3) := by after_results
theorem keep_hostOps0_1_main_arg0 : StableHlo.after hostOps0_1 Wv (Proc.devRef .tc main_arg0) = Wv (Proc.devRef .tc main_arg0) := by after_results
theorem keep_hostOps0_1_main_arg2 : StableHlo.after hostOps0_1 Wv (Proc.devRef .tc main_arg2) = Wv (Proc.devRef .tc main_arg2) := by after_results
theorem keep_hostOps0_1_main_arg3 : StableHlo.after hostOps0_1 Wv (Proc.devRef .tc main_arg3) = Wv (Proc.devRef .tc main_arg3) := by after_results
theorem keep_hostOps0_1_main_arg4 : StableHlo.after hostOps0_1 Wv (Proc.devRef .tc main_arg4) = Wv (Proc.devRef .tc main_arg4) := by after_results
theorem keep_hostOps0_2_main_v1 : StableHlo.after hostOps0_2 Wv (Proc.devRef .tc main_v1) = Wv (Proc.devRef .tc main_v1) := by after_results
theorem keep_hostOps0_2_main_v3 : StableHlo.after hostOps0_2 Wv (Proc.devRef .tc main_v3) = Wv (Proc.devRef .tc main_v3) := by after_results
theorem keep_hostOps0_2_main_arg0 : StableHlo.after hostOps0_2 Wv (Proc.devRef .tc main_arg0) = Wv (Proc.devRef .tc main_arg0) := by after_results
theorem keep_hostOps0_2_main_arg2 : StableHlo.after hostOps0_2 Wv (Proc.devRef .tc main_arg2) = Wv (Proc.devRef .tc main_arg2) := by after_results
theorem keep_hostOps0_2_main_arg3 : StableHlo.after hostOps0_2 Wv (Proc.devRef .tc main_arg3) = Wv (Proc.devRef .tc main_arg3) := by after_results
theorem keep_hostOps0_2_main_arg4 : StableHlo.after hostOps0_2 Wv (Proc.devRef .tc main_arg4) = Wv (Proc.devRef .tc main_arg4) := by after_results
theorem keep_hostOps1_main_v1 : StableHlo.after hostOps1 Wv (Proc.devRef .tc main_v1) = Wv (Proc.devRef .tc main_v1) := by after_results
theorem keep_hostOps1_main_v3 : StableHlo.after hostOps1 Wv (Proc.devRef .tc main_v3) = Wv (Proc.devRef .tc main_v3) := by after_results
theorem keep_hostOps1_main_v29 : StableHlo.after hostOps1 Wv (Proc.devRef .tc main_v29) = Wv (Proc.devRef .tc main_v29) := by after_results
theorem keep_hostOps1_main_arg3 : StableHlo.after hostOps1 Wv (Proc.devRef .tc main_arg3) = Wv (Proc.devRef .tc main_arg3) := by after_results
theorem keep_hostOps1_main_arg4 : StableHlo.after hostOps1 Wv (Proc.devRef .tc main_arg4) = Wv (Proc.devRef .tc main_arg4) := by after_results
theorem keep_hostOps2_main_v1 : StableHlo.after hostOps2 Wv (Proc.devRef .tc main_v1) = Wv (Proc.devRef .tc main_v1) := by after_results
theorem keep_hostOps2_main_v3 : StableHlo.after hostOps2 Wv (Proc.devRef .tc main_v3) = Wv (Proc.devRef .tc main_v3) := by after_results
theorem keep_hostOps2_main_v29 : StableHlo.after hostOps2 Wv (Proc.devRef .tc main_v29) = Wv (Proc.devRef .tc main_v29) := by after_results
theorem keep_hostOps2_main_arg4 : StableHlo.after hostOps2 Wv (Proc.devRef .tc main_arg4) = Wv (Proc.devRef .tc main_arg4) := by after_results
theorem keep_hostOps3_main_v3 : StableHlo.after hostOps3 Wv (Proc.devRef .tc main_v3) = Wv (Proc.devRef .tc main_v3) := by after_results
theorem keep_hostOps3_main_v29 : StableHlo.after hostOps3 Wv (Proc.devRef .tc main_v29) = Wv (Proc.devRef .tc main_v29) := by after_results
theorem keep_hostOps4_main_arg5 : StableHlo.after hostOps4 Wv (Proc.devRef .tc main_arg5) = Wv (Proc.devRef .tc main_arg5) := by after_results

end Stretches

variable (m : (ℓ : Loc nD τ sig) → Buf (Elt Ideal) ℓ) (ρ : Dev nD → PrngReg) (c : Dev nD)

/-! ## The boundaries' contents, one segment at a time -/

/-! ### After the first stretch -/

theorem w1_src : W1 m ρ c (Proc.devRef .tc main_v1) = srcRow (m ((c : Thread nD τ).loc main_arg1)) := first_src (W0 m ρ c) _ rfl
theorem w1_dst : W1 m ρ c (Proc.devRef .tc main_v3) = dstRow (m ((c : Thread nD τ).loc main_arg1)) := first_dst (W0 m ρ c) _ rfl
theorem w1_mask : W1 m ρ c (Proc.devRef .tc main_v9) = cmpf (F := Ideal) .ogt (degree (F := Ideal) (m ((c : Thread nD τ).loc main_arg1))) (broadcastInDim S100000 ![] bcast_S_S100000 (constant S_ .f32 0x00000000#32)) :=
  first_mask (W0 m ρ c) _ rfl
theorem w1_rsqrt : W1 m ρ c (Proc.devRef .tc main_v12) = Host.rsqrt (maximumf (degree (F := Ideal) (m ((c : Thread nD τ).loc main_arg1))) (broadcastInDim S100000 ![] bcast_S_S100000 (constant S_ .f32 0x3F800000#32))) :=
  first_rsqrt (W0 m ρ c) _ rfl
theorem w1_zero : W1 m ρ c (Proc.devRef .tc main_cst_3) = (constant (F := Ideal) S_ .f32 0x00000000#32 : FVec Ideal S_ .f32) := first_zero (W0 m ρ c)
theorem w1_arg0 : W1 m ρ c (Proc.devRef .tc main_arg0) = (m ((c : Thread nD τ).loc main_arg0)) := keep_hostOps0_main_arg0 (W0 m ρ c)
theorem w1_arg2 : W1 m ρ c (Proc.devRef .tc main_arg2) = (m ((c : Thread nD τ).loc main_arg2)) := keep_hostOps0_main_arg2 (W0 m ρ c)
theorem w1_arg3 : W1 m ρ c (Proc.devRef .tc main_arg3) = (m ((c : Thread nD τ).loc main_arg3)) := keep_hostOps0_main_arg3 (W0 m ρ c)
theorem w1_arg4 : W1 m ρ c (Proc.devRef .tc main_arg4) = (m ((c : Thread nD τ).loc main_arg4)) := keep_hostOps0_main_arg4 (W0 m ρ c)

/-! ### After the called function, and after the third stretch: the weights -/

theorem w2_inv : W2 m ρ c (Proc.devRef .tc main_v13) = invSqrtDegree (F := Ideal) (m ((c : Thread nD τ).loc main_arg1)) :=
  second_inv (W1 m ρ c) _ _ _ (w1_mask m ρ c) (w1_rsqrt m ρ c) (w1_zero m ρ c)
theorem w2_src : W2 m ρ c (Proc.devRef .tc main_v1) = srcRow (m ((c : Thread nD τ).loc main_arg1)) := (keep_hostOps0_1_main_v1 (W1 m ρ c)).trans (w1_src m ρ c)
theorem w2_dst : W2 m ρ c (Proc.devRef .tc main_v3) = dstRow (m ((c : Thread nD τ).loc main_arg1)) := (keep_hostOps0_1_main_v3 (W1 m ρ c)).trans (w1_dst m ρ c)
theorem w2_arg0 : W2 m ρ c (Proc.devRef .tc main_arg0) = (m ((c : Thread nD τ).loc main_arg0)) := (keep_hostOps0_1_main_arg0 (W1 m ρ c)).trans (w1_arg0 m ρ c)
theorem w2_arg2 : W2 m ρ c (Proc.devRef .tc main_arg2) = (m ((c : Thread nD τ).loc main_arg2)) := (keep_hostOps0_1_main_arg2 (W1 m ρ c)).trans (w1_arg2 m ρ c)
theorem w2_arg3 : W2 m ρ c (Proc.devRef .tc main_arg3) = (m ((c : Thread nD τ).loc main_arg3)) := (keep_hostOps0_1_main_arg3 (W1 m ρ c)).trans (w1_arg3 m ρ c)
theorem w2_arg4 : W2 m ρ c (Proc.devRef .tc main_arg4) = (m ((c : Thread nD τ).loc main_arg4)) := (keep_hostOps0_1_main_arg4 (W1 m ρ c)).trans (w1_arg4 m ρ c)
theorem w3_weight : W3 m ρ c (Proc.devRef .tc main_v29) = asColumn (edgeWeight (F := Ideal) (m ((c : Thread nD τ).loc main_arg1))) :=
  third_weight (W2 m ρ c) _ _ _ (w2_inv m ρ c) (w2_src m ρ c) (w2_dst m ρ c)
theorem w3_src : W3 m ρ c (Proc.devRef .tc main_v1) = srcRow (m ((c : Thread nD τ).loc main_arg1)) := (keep_hostOps0_2_main_v1 (W2 m ρ c)).trans (w2_src m ρ c)
theorem w3_dst : W3 m ρ c (Proc.devRef .tc main_v3) = dstRow (m ((c : Thread nD τ).loc main_arg1)) := (keep_hostOps0_2_main_v3 (W2 m ρ c)).trans (w2_dst m ρ c)
theorem w3_arg0 : W3 m ρ c (Proc.devRef .tc main_arg0) = (m ((c : Thread nD τ).loc main_arg0)) := (keep_hostOps0_2_main_arg0 (W2 m ρ c)).trans (w2_arg0 m ρ c)
theorem w3_arg2 : W3 m ρ c (Proc.devRef .tc main_arg2) = (m ((c : Thread nD τ).loc main_arg2)) := (keep_hostOps0_2_main_arg2 (W2 m ρ c)).trans (w2_arg2 m ρ c)
theorem w3_arg3 : W3 m ρ c (Proc.devRef .tc main_arg3) = (m ((c : Thread nD τ).loc main_arg3)) := (keep_hostOps0_2_main_arg3 (W2 m ρ c)).trans (w2_arg3 m ρ c)
theorem w3_arg4 : W3 m ρ c (Proc.devRef .tc main_arg4) = (m ((c : Thread nD τ).loc main_arg4)) := (keep_hostOps0_2_main_arg4 (W2 m ρ c)).trans (w2_arg4 m ρ c)

/-! ### Region 0 and the stretch after it -/

/-- Region 0 leaves `x · W1`. -/
theorem w4_dense (d1 : DotDims S100000x128 S128x128 S100000x128)
    (hd1 : ∀ (x : FVec Ideal S100000x128 .f32) (w : FVec Ideal S128x128 .f32) (r : Fin 100000) (q : Fin 128),
      Host.dotGeneral d1 none x w (ValueIdx.ix2 r q) = ∑ k : Fin 128, x (ValueIdx.ix2 r k) * w (ValueIdx.ix2 k q)) :
    W4 m ρ c (Proc.devRef .tc main_v30) = (Host.dotGeneral (F := Ideal) (φ₁ := .f32) (φ₂ := .f32) d1 none (m ((c : Thread nD τ).loc main_arg0)) (m ((c : Thread nD τ).loc main_arg2))) := by
  refine (W4_arr m ρ c 2).trans ((Dense128.array_eq (V3 m ρ) d1 hd1 c).trans ?_)
  show Dense128.product d1 (W3 m ρ c (Proc.devRef .tc main_arg0)) (W3 m ρ c (Proc.devRef .tc main_arg2)) = _
  rw [w3_arg0, w3_arg2]
theorem w4_src : W4 m ρ c (Proc.devRef .tc main_v1) = srcRow (m ((c : Thread nD τ).loc main_arg1)) := (W4_of_ne m ρ c main_v1 (by decide)).trans (w3_src m ρ c)
theorem w4_dst : W4 m ρ c (Proc.devRef .tc main_v3) = dstRow (m ((c : Thread nD τ).loc main_arg1)) := (W4_of_ne m ρ c main_v3 (by decide)).trans (w3_dst m ρ c)
theorem w4_weight : W4 m ρ c (Proc.devRef .tc main_v29) = asColumn (edgeWeight (F := Ideal) (m ((c : Thread nD τ).loc main_arg1))) := (W4_of_ne m ρ c main_v29 (by decide)).trans (w3_weight m ρ c)
theorem w4_arg3 : W4 m ρ c (Proc.devRef .tc main_arg3) = (m ((c : Thread nD τ).loc main_arg3)) := (W4_of_ne m ρ c main_arg3 (by decide)).trans (w3_arg3 m ρ c)
theorem w4_arg4 : W4 m ρ c (Proc.devRef .tc main_arg4) = (m ((c : Thread nD τ).loc main_arg4)) := (W4_of_ne m ρ c main_arg4 (by decide)).trans (w3_arg4 m ρ c)
/-- Its rows gathered at the edges' sources. -/
theorem w5_gathered (d1 : DotDims S100000x128 S128x128 S100000x128)
    (hd1 : ∀ (x : FVec Ideal S100000x128 .f32) (w : FVec Ideal S128x128 .f32) (r : Fin 100000) (q : Fin 128),
      Host.dotGeneral d1 none x w (ValueIdx.ix2 r q) = ∑ k : Fin 128, x (ValueIdx.ix2 r k) * w (ValueIdx.ix2 k q)) :
    W5 m ρ c (Proc.devRef .tc main_v37) = Host.gather gather_S100000x128_S1600000x1_S1600000x128_1_0_n_n_0_1_1128 (Host.dotGeneral (F := Ideal) (φ₁ := .f32) (φ₂ := .f32) d1 none (m ((c : Thread nD τ).loc main_arg0)) (m ((c : Thread nD τ).loc main_arg2))) (asColumn (wrapped (srcRow (m ((c : Thread nD τ).loc main_arg1))))) :=
  gather128 (W4 m ρ c) _ _ (w4_dense m ρ c d1 hd1) (w4_src m ρ c)
theorem w5_src : W5 m ρ c (Proc.devRef .tc main_v1) = srcRow (m ((c : Thread nD τ).loc main_arg1)) := (keep_hostOps1_main_v1 (W4 m ρ c)).trans (w4_src m ρ c)
theorem w5_dst : W5 m ρ c (Proc.devRef .tc main_v3) = dstRow (m ((c : Thread nD τ).loc main_arg1)) := (keep_hostOps1_main_v3 (W4 m ρ c)).trans (w4_dst m ρ c)
theorem w5_weight : W5 m ρ c (Proc.devRef .tc main_v29) = asColumn (edgeWeight (F := Ideal) (m ((c : Thread nD τ).loc main_arg1))) := (keep_hostOps1_main_v29 (W4 m ρ c)).trans (w4_weight m ρ c)
theorem w5_arg3 : W5 m ρ c (Proc.devRef .tc main_arg3) = (m ((c : Thread nD τ).loc main_arg3)) := (keep_hostOps1_main_arg3 (W4 m ρ c)).trans (w4_arg3 m ρ c)
theorem w5_arg4 : W5 m ρ c (Proc.devRef .tc main_arg4) = (m ((c : Thread nD τ).loc main_arg4)) := (keep_hostOps1_main_arg4 (W4 m ρ c)).trans (w4_arg4 m ρ c)

/-! ### Region 1 and the stretch after it -/

/-- Region 1 leaves the gathered rows times the edge weights. -/
theorem w6_scaled (d1 : DotDims S100000x128 S128x128 S100000x128)
    (hd1 : ∀ (x : FVec Ideal S100000x128 .f32) (w : FVec Ideal S128x128 .f32) (r : Fin 100000) (q : Fin 128),
      Host.dotGeneral d1 none x w (ValueIdx.ix2 r q) = ∑ k : Fin 128, x (ValueIdx.ix2 r k) * w (ValueIdx.ix2 k q)) :
    W6 m ρ c (Proc.devRef .tc main_v38) = mulf (Host.gather gather_S100000x128_S1600000x1_S1600000x128_1_0_n_n_0_1_1128 (Host.dotGeneral (F := Ideal) (φ₁ := .f32) (φ₂ := .f32) d1 none (m ((c : Thread nD τ).loc main_arg0)) (m ((c : Thread nD τ).loc main_arg2))) (asColumn (wrapped (srcRow (m ((c : Thread nD τ).loc main_arg1))))))
      (broadcastInDim S1600000x128 ![0, 1] stretch_col128 (asColumn (edgeWeight (F := Ideal) (m ((c : Thread nD τ).loc main_arg1))))) := by
  refine (W6_arr m ρ c 2).trans ((Scale128.array_eq (V5 m ρ) stretch_col128 c).trans ?_)
  show Scale128.scaled stretch_col128 (W5 m ρ c (Proc.devRef .tc main_v37)) (W5 m ρ c (Proc.devRef .tc main_v29)) = _
  rw [w5_gathered m ρ c d1 hd1, w5_weight]
theorem w6_src : W6 m ρ c (Proc.devRef .tc main_v1) = srcRow (m ((c : Thread nD τ).loc main_arg1)) := (W6_of_ne m ρ c main_v1 (by decide)).trans (w5_src m ρ c)
theorem w6_dst : W6 m ρ c (Proc.devRef .tc main_v3) = dstRow (m ((c : Thread nD τ).loc main_arg1)) := (W6_of_ne m ρ c main_v3 (by decide)).trans (w5_dst m ρ c)
-- the weight column is region 1's second input: an input array is left as the region found it
theorem w6_weight : W6 m ρ c (Proc.devRef .tc main_v29) = asColumn (edgeWeight (F := Ideal) (m ((c : Thread nD τ).loc main_arg1))) :=
  ((W6_arr m ρ c 1).trans (((dat1 (V5 m ρ) c).arrAt_in 1 rfl _).trans (A_eq1 (V5 m ρ) c 1))).trans (w5_weight m ρ c)
theorem w6_arg3 : W6 m ρ c (Proc.devRef .tc main_arg3) = (m ((c : Thread nD τ).loc main_arg3)) := (W6_of_ne m ρ c main_arg3 (by decide)).trans (w5_arg3 m ρ c)
theorem w6_arg4 : W6 m ρ c (Proc.devRef .tc main_arg4) = (m ((c : Thread nD τ).loc main_arg4)) := (W6_of_ne m ρ c main_arg4 (by decide)).trans (w5_arg4 m ρ c)
/-- Added at the destinations: the first layer's aggregation. -/
theorem w7_aggregated (d1 : DotDims S100000x128 S128x128 S100000x128)
    (hd1 : ∀ (x : FVec Ideal S100000x128 .f32) (w : FVec Ideal S128x128 .f32) (r : Fin 100000) (q : Fin 128),
      Host.dotGeneral d1 none x w (ValueIdx.ix2 r q) = ∑ k : Fin 128, x (ValueIdx.ix2 r k) * w (ValueIdx.ix2 k q)) :
    W7 m ρ c (Proc.devRef .tc main_v41) = aggregate128 (Host.dotGeneral (F := Ideal) (φ₁ := .f32) (φ₂ := .f32) d1 none (m ((c : Thread nD τ).loc main_arg0)) (m ((c : Thread nD τ).loc main_arg2))) (m ((c : Thread nD τ).loc main_arg1)) :=
  scatter128 (W6 m ρ c) _ _ (w6_scaled m ρ c d1 hd1) (w6_dst m ρ c)
/-- The first bias as a row. -/
theorem w7_bias : W7 m ρ c (Proc.devRef .tc main_v42) = broadcastInDim S1x128 ![1] as_row128 (m ((c : Thread nD τ).loc main_arg3)) := bias128 (W6 m ρ c) _ (w6_arg3 m ρ c)
theorem w7_src : W7 m ρ c (Proc.devRef .tc main_v1) = srcRow (m ((c : Thread nD τ).loc main_arg1)) := (keep_hostOps2_main_v1 (W6 m ρ c)).trans (w6_src m ρ c)
theorem w7_dst : W7 m ρ c (Proc.devRef .tc main_v3) = dstRow (m ((c : Thread nD τ).loc main_arg1)) := (keep_hostOps2_main_v3 (W6 m ρ c)).trans (w6_dst m ρ c)
theorem w7_weight : W7 m ρ c (Proc.devRef .tc main_v29) = asColumn (edgeWeight (F := Ideal) (m ((c : Thread nD τ).loc main_arg1))) := (keep_hostOps2_main_v29 (W6 m ρ c)).trans (w6_weight m ρ c)
theorem w7_arg4 : W7 m ρ c (Proc.devRef .tc main_arg4) = (m ((c : Thread nD τ).loc main_arg4)) := (keep_hostOps2_main_arg4 (W6 m ρ c)).trans (w6_arg4 m ρ c)

/-! ### Region 2 and the stretch after it -/

/-- Region 2 leaves the hidden rows times `W2`. -/
theorem w8_dense (d1 : DotDims S100000x128 S128x128 S100000x128)
    (hd1 : ∀ (x : FVec Ideal S100000x128 .f32) (w : FVec Ideal S128x128 .f32) (r : Fin 100000) (q : Fin 128),
      Host.dotGeneral d1 none x w (ValueIdx.ix2 r q) = ∑ k : Fin 128, x (ValueIdx.ix2 r k) * w (ValueIdx.ix2 k q)) (d2 : DotDims S100000x128 S128x64 S100000x64)
    (hd2 : ∀ (x : FVec Ideal S100000x128 .f32) (w : FVec Ideal S128x64 .f32) (r : Fin 100000) (q : Fin 64),
      Host.dotGeneral d2 none x w (ValueIdx.ix2 r q) = ∑ k : Fin 128, x (ValueIdx.ix2 r k) * w (ValueIdx.ix2 k q)) :
    W8 m ρ c (Proc.devRef .tc main_v43) = (Host.dotGeneral (F := Ideal) (φ₁ := .f32) (φ₂ := .f32) d2 none (hidden (F := Ideal) d1 (m ((c : Thread nD τ).loc main_arg0)) (m ((c : Thread nD τ).loc main_arg1)) (m ((c : Thread nD τ).loc main_arg2)) (m ((c : Thread nD τ).loc main_arg3))) (m ((c : Thread nD τ).loc main_arg4))) := by
  refine (W8_arr m ρ c 3).trans ((Dense64.array_eq (V7 m ρ) stretch_row128 bcast_S_S100000x128 d2 hd2 c).trans ?_)
  show Dense64.product d2 (Dense64.rectified stretch_row128 bcast_S_S100000x128 (W7 m ρ c (Proc.devRef .tc main_v41)) (W7 m ρ c (Proc.devRef .tc main_v42))) (W7 m ρ c (Proc.devRef .tc main_arg4)) = _
  rw [w7_aggregated m ρ c d1 hd1, w7_bias, w7_arg4]
  rfl
theorem w8_src : W8 m ρ c (Proc.devRef .tc main_v1) = srcRow (m ((c : Thread nD τ).loc main_arg1)) := (W8_of_ne m ρ c main_v1 (by decide)).trans (w7_src m ρ c)
theorem w8_dst : W8 m ρ c (Proc.devRef .tc main_v3) = dstRow (m ((c : Thread nD τ).loc main_arg1)) := (W8_of_ne m ρ c main_v3 (by decide)).trans (w7_dst m ρ c)
theorem w8_weight : W8 m ρ c (Proc.devRef .tc main_v29) = asColumn (edgeWeight (F := Ideal) (m ((c : Thread nD τ).loc main_arg1))) := (W8_of_ne m ρ c main_v29 (by decide)).trans (w7_weight m ρ c)
/-- Its rows gathered at the edges' sources. -/
theorem w9_gathered (d1 : DotDims S100000x128 S128x128 S100000x128)
    (hd1 : ∀ (x : FVec Ideal S100000x128 .f32) (w : FVec Ideal S128x128 .f32) (r : Fin 100000) (q : Fin 128),
      Host.dotGeneral d1 none x w (ValueIdx.ix2 r q) = ∑ k : Fin 128, x (ValueIdx.ix2 r k) * w (ValueIdx.ix2 k q)) (d2 : DotDims S100000x128 S128x64 S100000x64)
    (hd2 : ∀ (x : FVec Ideal S100000x128 .f32) (w : FVec Ideal S128x64 .f32) (r : Fin 100000) (q : Fin 64),
      Host.dotGeneral d2 none x w (ValueIdx.ix2 r q) = ∑ k : Fin 128, x (ValueIdx.ix2 r k) * w (ValueIdx.ix2 k q)) :
    W9 m ρ c (Proc.devRef .tc main_v50) = Host.gather gather_S100000x64_S1600000x1_S1600000x64_1_0_n_n_0_1_164 (Host.dotGeneral (F := Ideal) (φ₁ := .f32) (φ₂ := .f32) d2 none (hidden (F := Ideal) d1 (m ((c : Thread nD τ).loc main_arg0)) (m ((c : Thread nD τ).loc main_arg1)) (m ((c : Thread nD τ).loc main_arg2)) (m ((c : Thread nD τ).loc main_arg3))) (m ((c : Thread nD τ).loc main_arg4))) (asColumn (wrapped (srcRow (m ((c : Thread nD τ).loc main_arg1))))) :=
  gather64 (W8 m ρ c) _ _ (w8_dense m ρ c d1 hd1 d2 hd2) (w8_src m ρ c)
theorem w9_dst : W9 m ρ c (Proc.devRef .tc main_v3) = dstRow (m ((c : Thread nD τ).loc main_arg1)) := (keep_hostOps3_main_v3 (W8 m ρ c)).trans (w8_dst m ρ c)
theorem w9_weight : W9 m ρ c (Proc.devRef .tc main_v29) = asColumn (edgeWeight (F := Ideal) (m ((c : Thread nD τ).loc main_arg1))) := (keep_hostOps3_main_v29 (W8 m ρ c)).trans (w8_weight m ρ c)

/-! ### Region 3 and the last stretch -/

/-- Region 3 leaves the gathered rows times the edge weights. -/
theorem w10_scaled (d1 : DotDims S100000x128 S128x128 S100000x128)
    (hd1 : ∀ (x : FVec Ideal S100000x128 .f32) (w : FVec Ideal S128x128 .f32) (r : Fin 100000) (q : Fin 128),
      Host.dotGeneral d1 none x w (ValueIdx.ix2 r q) = ∑ k : Fin 128, x (ValueIdx.ix2 r k) * w (ValueIdx.ix2 k q)) (d2 : DotDims S100000x128 S128x64 S100000x64)
    (hd2 : ∀ (x : FVec Ideal S100000x128 .f32) (w : FVec Ideal S128x64 .f32) (r : Fin 100000) (q : Fin 64),
      Host.dotGeneral d2 none x w (ValueIdx.ix2 r q) = ∑ k : Fin 128, x (ValueIdx.ix2 r k) * w (ValueIdx.ix2 k q)) :
    W10 m ρ c (Proc.devRef .tc main_v51) = mulf (Host.gather gather_S100000x64_S1600000x1_S1600000x64_1_0_n_n_0_1_164 (Host.dotGeneral (F := Ideal) (φ₁ := .f32) (φ₂ := .f32) d2 none (hidden (F := Ideal) d1 (m ((c : Thread nD τ).loc main_arg0)) (m ((c : Thread nD τ).loc main_arg1)) (m ((c : Thread nD τ).loc main_arg2)) (m ((c : Thread nD τ).loc main_arg3))) (m ((c : Thread nD τ).loc main_arg4))) (asColumn (wrapped (srcRow (m ((c : Thread nD τ).loc main_arg1))))))
      (broadcastInDim S1600000x64 ![0, 1] stretch_col64 (asColumn (edgeWeight (F := Ideal) (m ((c : Thread nD τ).loc main_arg1))))) := by
  refine (W10_arr m ρ c 2).trans ((Scale64.array_eq (V9 m ρ) stretch_col64 c).trans ?_)
  show Scale64.scaled stretch_col64 (W9 m ρ c (Proc.devRef .tc main_v50)) (W9 m ρ c (Proc.devRef .tc main_v29)) = _
  rw [w9_gathered m ρ c d1 hd1 d2 hd2, w9_weight]
theorem w10_dst : W10 m ρ c (Proc.devRef .tc main_v3) = dstRow (m ((c : Thread nD τ).loc main_arg1)) := (W10_of_ne m ρ c main_v3 (by decide)).trans (w9_dst m ρ c)
/-- The last argument is still as launched before the last stretch: that stretch does not write it, and after it the
    generated frame reads it back to the launch. -/
theorem w10_arg5 : W10 m ρ c (Proc.devRef .tc main_arg5) = (m ((c : Thread nD τ).loc main_arg5)) :=
  (keep_hostOps4_main_arg5 (W10 m ρ c)).symm.trans (W11_main_arg5 m ρ c)

/-- THE RESULT: the second aggregation plus the second bias, of the arguments as launched. -/
theorem result (d1 : DotDims S100000x128 S128x128 S100000x128)
    (hd1 : ∀ (x : FVec Ideal S100000x128 .f32) (w : FVec Ideal S128x128 .f32) (r : Fin 100000) (q : Fin 128),
      Host.dotGeneral d1 none x w (ValueIdx.ix2 r q) = ∑ k : Fin 128, x (ValueIdx.ix2 r k) * w (ValueIdx.ix2 k q)) (d2 : DotDims S100000x128 S128x64 S100000x64)
    (hd2 : ∀ (x : FVec Ideal S100000x128 .f32) (w : FVec Ideal S128x64 .f32) (r : Fin 100000) (q : Fin 64),
      Host.dotGeneral d2 none x w (ValueIdx.ix2 r q) = ∑ k : Fin 128, x (ValueIdx.ix2 r k) * w (ValueIdx.ix2 k q)) :
    W11 m ρ c (Proc.devRef .tc main_v57) = output (F := Ideal) d1 d2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  last_out (W10 m ρ c) _ _ _ (w10_scaled m ρ c d1 hd1 d2 hd2) (w10_dst m ρ c) (w10_arg5 m ρ c)

end Cert.KernelIdeal.Chain

end
-- ==== Proof.lean ====
/-
  The certificate of a two-layer graph convolution: a tiled kernel program against its plain reference.

  Both programs compute, from node features `x`, an edge list, and two layers of weights and biases,
  `aggregate(max(aggregate(x·W1) + b1, 0)·W2) + b2`, where `aggregate` gathers each edge's source row, scales it by the
  edge's weight `1/√deg(src) · 1/√deg(dst)` and adds it into the destination's row. The kernel program computes the two
  dense products and the two edge-wise scalings in four pipelined regions (4000 rows, respectively 8000 edges, per grid point);
  the reference computes each with one host operation over the whole arrays. Over the extended reals a tile of a matrix
  product into a zero accumulator is the same sum as the host's product read at that tile's rows, and a change of float
  format is the identity, so the two results are ONE function of the arguments (Proof/Spec.lean). No law beyond that is
  used, and the inputs' finiteness is never needed.

  The three frames: the kernel programs' are the generated ones; the reference's is its run with the result dropped.
  `preserves` is trivial (the idealization rewrote nothing). `algebraic`: the idealized kernel's run ends with its result at
  the last boundary's contents (Proof/KernelRun.lean), which read back through the four regions (Proof/Dense128.lean,
  Scale128.lean, Dense64.lean, Scale64.lean) and the host stretches between them (Proof/Chain.lean) is the specification's
  output; the reference's run ends at its operations' composed term, which is that output by unfolding
  (Proof/RefSpec.lean); the arguments agree.
-/
import proofs.«147359_j16887811408593_1_alg».proof.Defs
import proofs.«147359_j16887811408593_1_alg».proof.Proof.Gen.Kernel
import proofs.«147359_j16887811408593_1_alg».proof.Proof.Gen.Kernel.Skeleton
import proofs.«147359_j16887811408593_1_alg».proof.Proof.Gen.Kernel.Launch
import proofs.«147359_j16887811408593_1_alg».proof.Proof.Gen.Kernel.Points
import proofs.«147359_j16887811408593_1_alg».proof.Proof.Gen.Kernel.Frame
import proofs.«147359_j16887811408593_1_alg».proof.Proof.Gen.KernelIdeal
import proofs.«147359_j16887811408593_1_alg».proof.Proof.Gen.KernelIdeal.Skeleton
import proofs.«147359_j16887811408593_1_alg».proof.Proof.Gen.KernelIdeal.Launch
import proofs.«147359_j16887811408593_1_alg».proof.Proof.Gen.KernelIdeal.Points
import proofs.«147359_j16887811408593_1_alg».proof.Proof.Gen.KernelIdeal.Frame
import proofs.«147359_j16887811408593_1_alg».proof.Proof.Gen.ReferenceIdeal
import proofs.«147359_j16887811408593_1_alg».proof.Proof.Gen.Pre_finite_inputs
import proofs.«147359_j16887811408593_1_alg».proof.Proof.KernelRun
import proofs.«147359_j16887811408593_1_alg».proof.Proof.RefRun
import proofs.«147359_j16887811408593_1_alg».proof.Proof.RefSpec
import proofs.«147359_j16887811408593_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs, from memories that agree on the arguments, end with the specification's output of those arguments. -/
theorem algebraic : Cert.algebraic_KernelIdeal_ReferenceIdeal := by
  intro m ρ m' ρ' _ hagree
  refine ⟨fun c => Cert.KernelIdeal.Spec.output (F := Ideal) Cert.ReferenceIdeal.dot_S100000x128_S128x128_S100000x128_1_0_0_1_n_n Cert.ReferenceIdeal.dot_S100000x128_S128x64_S100000x64_1_0_0_1_n_n
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.result m ρ c _ Cert.ReferenceIdeal.RefSpec.dot1_reads _ Cert.ReferenceIdeal.RefSpec.dot2_reads), (h c).2⟩)
      (Cert.KernelIdeal.Hand.run_last (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefSpec.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
